-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8x2048x64 : Shape := ⟨4, ![4, 8, 2048, 64]⟩
abbrev S64x64 : Shape := ⟨2, ![64, 64]⟩
abbrev S64 : Shape := ⟨1, ![64]⟩
abbrev S_ : Shape := ⟨0, ![]⟩

class Facts : Prop where
  bcast_S_S4x8x2048x64 : S_.BroadcastsInDim S4x8x2048x64 (![] : Fin 0 → Fin S4x8x2048x64.rank)
  reducesTo_S4x8x2048x64_S_d0_1_2_3 : S4x8x2048x64.ReducesTo [0, 1, 2, 3] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_arg5 : FVec F S64x64 .f32) (main_arg6 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S4x8x2048x64 .f32) (main_arg1 : FVec F S64x64 .f32) (main_arg2 : FVec F S64 .f32) (main_arg3 : FVec F S64x64 .f32) (main_arg4 : FVec F S64 .f32) (main_arg5 : FVec F S64x64 .f32) (main_arg6 : FVec F S64 .f32) : IVec S_ 1 :=
  let main_v0 : FVec F S4x8x2048x64 .f32 := Host.absf main_arg0
  let main_cst : FVec F S_ .f32 := constant S_ .f32 0x7F800000#32
  let main_v1 : FVec F S4x8x2048x64 .f32 := broadcastInDim S4x8x2048x64 ![] bcast_S_S4x8x2048x64 main_cst
  let main_v2 : IVec S4x8x2048x64 1 := cmpf .olt main_v0 main_v1
  let main_c : IVec S_ 1 := constantI S_ 1 1#1
  let main_v3 : IVec S_ 1 := (fun x v => Host.reduce IntOp.andi x v reducesTo_S4x8x2048x64_S_d0_1_2_3 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_v13 main_v16
-- ==== Kernel.lean ====
abbrev S4x8x2048x64 : Shape := ⟨4, ![4, 8, 2048, 64]⟩
abbrev S64x64 : Shape := ⟨2, ![64, 64]⟩
abbrev S64 : Shape := ⟨1, ![64]⟩
abbrev S32x2048x64 : Shape := ⟨3, ![32, 2048, 64]⟩
abbrev S1x2048x64 : Shape := ⟨3, ![1, 2048, 64]⟩
abbrev S1x1024x64 : Shape := ⟨3, ![1, 1024, 64]⟩
abbrev S2048x64 : Shape := ⟨2, ![2048, 64]⟩
abbrev S1x64 : Shape := ⟨2, ![1, 64]⟩
abbrev S1024x64 : Shape := ⟨2, ![1024, 64]⟩
abbrev S64x2048 : Shape := ⟨2, ![64, 2048]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 10
  | .vmem => 12
  | .smem => 0
  | _ => 0

abbrev bufTy : (tb : Table) → Fin (tcTables nBuf tb) → BufTy
  | .hbm, ⟨0, _⟩ => ⟨S4x8x2048x64, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S32x2048x64, .f32⟩
  | .hbm, ⟨8, _⟩ => ⟨S32x2048x64, .f32⟩
  | .hbm, ⟨9, _⟩ => ⟨S4x8x2048x64, .f32⟩
  | .local _ .vmem, ⟨0, _⟩ => ⟨S1x2048x64, .f32⟩
  | .local _ .vmem, ⟨1, _⟩ => ⟨S1x2048x64, .f32⟩
  | .local _ .vmem, ⟨2, _⟩ => ⟨S64x64, .f32⟩
  | .local _ .vmem, ⟨3, _⟩ => ⟨S64, .f32⟩
  | .local _ .vmem, ⟨4, _⟩ => ⟨S64x64, .f32⟩
  | .local _ .vmem, ⟨5, _⟩ => ⟨S64, .f32⟩
  | .local _ .vmem, ⟨6, _⟩ => ⟨S64x64, .f32⟩
  | .local _ .vmem, ⟨7, _⟩ => ⟨S64, .f32⟩
  | .local _ .vmem, ⟨8, _⟩ => ⟨S1x1024x64, .f32⟩
  | .local _ .vmem, ⟨9, _⟩ => ⟨S1x1024x64, .f32⟩
  | .local _ .vmem, ⟨10, _⟩ => ⟨S2048x64, .bf16⟩
  | .local _ .vmem, ⟨11, _⟩ => ⟨S2048x64, .bf16⟩
  | _, _ => ⟨S4x8x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![32, 2], ![false, false]⟩

def k0_mult1 (i : grid0.Coords) : BitVec 32 :=
  let arg1 : BitVec 32 := BitVec.ofNat 32 (i 1).val
  let c1024_i32 : BitVec 32 := 1024#32
  let v3 : BitVec 32 := Scalar.muli arg1 c1024_i32
  v3
def k0_off1 (i : grid0.Coords) : Fin 3 → Nat :=
  let c0 : Index := 0#32
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  let c0_1 : Index := 0#32
  ![0, v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  shapeCasts_S4x8x2048x64_S32x2048x64 : S4x8x2048x64.ShapeCasts S32x2048x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  transposes_S64x64_p1_0_S64x64 : S64x64.Transposes [1, 0] S64x64
  shapeCasts_S64_S1x64 : S64.ShapeCasts S1x64
  broadcasts_S1x64_S2048x64 : S1x64.Broadcasts S2048x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  packedbf16_S2048x64_S2048x64_0_0 : (Rect.unit (s := S2048x64) ![0, 0] S2048x64.size inb_S2048x64_S2048x64_0_0).PackedRows (EltTy.packing .bf16)
  h_S1x1024x64 : 0 < S1x1024x64.numel
  shapeCasts_S1x1024x64_S1024x64 : S1x1024x64.ShapeCasts S1024x64
  broadcasts_S1x64_S1024x64 : S1x64.Broadcasts S1024x64
  transposes_S2048x64_p1_0_S64x2048 : S2048x64.Transposes [1, 0] S64x2048
  reduces_S1024x2048_S1024 : S1024x2048.Reduces [1] S1024
  shapeCasts_S1024_S1024x1 : S1024.ShapeCasts S1024x1
  broadcasts_S1024x1_S1024x2048 : S1024x1.Broadcasts S1024x2048
  inb_S1x1024x64_S1x1024x64_0_0_0 : ∀ a, (![0, 0, 0] : Fin 3 → Nat) a + S1x1024x64.size a ≤ S1x1024x64.size a
  shapeCasts_S1024x64_S1x1024x64 : S1024x64.ShapeCasts S1x1024x64
  shapeCasts_S32x2048x64_S4x8x2048x64 : S32x2048x64.ShapeCasts S4x8x2048x64
  dot_S2048x64_S64x64_S2048x64_1_0_0_1_n_n_wf : DotDims.WF S2048x64 S64x64 S2048x64 [1] [0] [0] [1] [] []
  dot_S1024x64_S64x64_S1024x64_1_0_0_1_n_n_wf : DotDims.WF S1024x64 S64x64 S1024x64 [1] [0] [0] [1] [] []
  dot_S1024x64_S64x2048_S1024x2048_1_0_0_1_n_n_wf : DotDims.WF S1024x64 S64x2048 S1024x2048 [1] [0] [0] [1] [] []
  dot_S1024x2048_S2048x64_S1024x64_1_0_0_1_n_n_wf : DotDims.WF S1024x2048 S2048x64 S1024x64 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S1x1024x64.size a ≤ S1x2048x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x64.size a ≤ S32x2048x64.size a
  hwx0_0 : ∀ i : grid0.Coords, EltTy.bits .f32 = 32 ∨ (Rect.block (s := S32x2048x64) S1x2048x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1024x64.size a ≤ S32x2048x64.size a
  hwx0_7 : ∀ i : grid0.Coords, EltTy.bits .f32 = 32 ∨ (Rect.block (s := S32x2048x64) S1x1024x64.size (cc0_transform_7 i) (hinb0_7 i)).WholeWords (EltTy.packing .f32)

variable [Facts₀]

def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf
def dot_S1024x64_S64x2048_S1024x2048_1_0_0_1_n_n : DotDims S1024x64 S64x2048 S1024x2048 where
  lhsContracting := [1]
  rhsContracting := [0]
  lhsNonContracting := [0]
  rhsNonContracting := [1]
  lhsBatch := []
  rhsBatch := []
  wf := dot_S1024x64_S64x2048_S1024x2048_1_0_0_1_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_v0) S1x2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1) S1x1024x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4x8x2048x64 : Shape := ⟨4, ![4, 8, 2048, 64]⟩
abbrev S64x64 : Shape := ⟨2, ![64, 64]⟩
abbrev S64 : Shape := ⟨1, ![64]⟩
abbrev S1x1x1x64 : Shape := ⟨4, ![1, 1, 1, 64]⟩
abbrev S4x8x2048x2048 : Shape := ⟨4, ![4, 8, 2048, 2048]⟩
abbrev S_ : Shape := ⟨0, ![]⟩
abbrev S4x8x2048 : Shape := ⟨3, ![4, 8, 2048]⟩
abbrev S4x8x2048x1 : Shape := ⟨4, ![4, 8, 2048, 1]⟩

abbrev nBuf : Space → Nat
  | .hbm => 39
  | .vmem => 0
  | .smem => 0
  | _ => 0

abbrev bufTy : (tb : Table) → Fin (tcTables nBuf tb) → BufTy
  | .hbm, ⟨0, _⟩ => ⟨S4x8x2048x64, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S4x8x2048x64, .f32⟩
  | .hbm, ⟨8, _⟩ => ⟨S1x1x1x64, .f32⟩
  | .hbm, ⟨9, _⟩ => ⟨S4x8x2048x64, .f32⟩
  | .hbm, ⟨10, _⟩ => ⟨S4x8x2048x64, .f32⟩
  | .hbm, ⟨11, _⟩ => ⟨S4x8x2048x64, .f32⟩
  | .hbm, ⟨12, _⟩ => ⟨S1x1x1x64, .f32⟩
  | .hbm, ⟨13, _⟩ => ⟨S4x8x2048x64, .f32⟩
  | .hbm, ⟨14, _⟩ => ⟨S4x8x2048x64, .f32⟩
  | .hbm, ⟨15, _⟩ => ⟨S4x8x2048x64, .f32⟩
  | .hbm, ⟨16, _⟩ => ⟨S1x1x1x64, .f32⟩
  | .hbm, ⟨17, _⟩ => ⟨S4x8x2048x64, .f32⟩
  | .hbm, ⟨18, _⟩ => ⟨S4x8x2048x64, .f32⟩
  | .hbm, ⟨19, _⟩ => ⟨S4x8x2048x2048, .f32⟩
  | .hbm, ⟨20, _⟩ => ⟨S_, .f32⟩
  | .hbm, ⟨21, _⟩ => ⟨S_, .f32⟩
  | .hbm, ⟨22, _⟩ => ⟨S4x8x2048x2048, .f32⟩
  | .hbm, ⟨23, _⟩ => ⟨S4x8x2048x2048, .f32⟩
  | .hbm, ⟨24, _⟩ => ⟨S_, .f32⟩
  | .hbm, ⟨25, _⟩ => ⟨S4x8x2048, .f32⟩
  | .hbm, ⟨26, _⟩ => ⟨S_, .f32⟩
  | .hbm, ⟨27, _⟩ => ⟨S4x8x2048, .f32⟩
  | .hbm, ⟨28, _⟩ => ⟨S4x8x2048, .f32⟩
  | .hbm, ⟨29, _⟩ => ⟨S4x8x2048x1, .f32⟩
  | .hbm, ⟨30, _⟩ => ⟨S4x8x2048x2048, .f32⟩
  | .hbm, ⟨31, _⟩ => ⟨S4x8x2048x2048, .f32⟩
  | .hbm, ⟨32, _⟩ => ⟨S4x8x2048x2048, .f32⟩
  | .hbm, ⟨33, _⟩ => ⟨S_, .f32⟩
  | .hbm, ⟨34, _⟩ => ⟨S4x8x2048, .f32⟩
  | .hbm, ⟨35, _⟩ => ⟨S4x8x2048x1, .f32⟩
  | .hbm, ⟨36, _⟩ => ⟨S4x8x2048x2048, .f32⟩
  | .hbm, ⟨37, _⟩ => ⟨S4x8x2048x2048, .f32⟩
  | .hbm, ⟨38, _⟩ => ⟨S4x8x2048x64, .f32⟩
  | _, _ => ⟨S4x8x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]

class Facts₀ : Prop where
  bcast_S64_S1x1x1x64_3 : S64.BroadcastsInDim S1x1x1x64 (![3] : Fin 1 → Fin S1x1x1x64.rank)
  bcast_S1x1x1x64_S4x8x2048x64_0_1_2_3 : S1x1x1x64.BroadcastsInDim S4x8x2048x64 (![0, 1, 2, 3] : Fin 4 → Fin S4x8x2048x64.rank)
  bcast_S_S4x8x2048x2048 : S_.BroadcastsInDim S4x8x2048x2048 (![] : Fin 0 → Fin S4x8x2048x2048.rank)
  reducesTo_S4x8x2048x2048_S4x8x2048_d3 : S4x8x2048x2048.ReducesTo [3] S4x8x2048
  h_S_ : 0 < S_.numel
  bcast_S_S4x8x2048 : S_.BroadcastsInDim S4x8x2048 (![] : Fin 0 → Fin S4x8x2048.rank)
  bcast_S4x8x2048_S4x8x2048x1_0_1_2 : S4x8x2048.BroadcastsInDim S4x8x2048x1 (![0, 1, 2] : Fin 3 → Fin S4x8x2048x1.rank)
  bcast_S4x8x2048x1_S4x8x2048x2048_0_1_2_3 : S4x8x2048x1.BroadcastsInDim S4x8x2048x2048 (![0, 1, 2, 3] : Fin 4 → Fin S4x8x2048x2048.rank)
  dot_S4x8x2048x64_S64x64_S4x8x2048x64_3_1_012_0_n_n_wf : DotDims.WF S4x8x2048x64 S64x64 S4x8x2048x64 [3] [1] [0, 1, 2] [0] [] []
  dot_S4x8x2048x64_S4x8x2048x64_S4x8x2048x2048_3_3_2_2_01_01_wf : DotDims.WF S4x8x2048x64 S4x8x2048x64 S4x8x2048x2048 [3] [3] [2] [2] [0, 1] [0, 1]
  dot_S4x8x2048x2048_S4x8x2048x64_S4x8x2048x64_3_2_2_3_01_01_wf : DotDims.WF S4x8x2048x2048 S4x8x2048x64 S4x8x2048x64 [3] [2] [2] [3] [0, 1] [0, 1]

variable [Facts₀]

def dot_S4x8x2048x64_S64x64_S4x8x2048x64_3_1_012_0_n_n : DotDims S4x8x2048x64 S64x64 S4x8x2048x64 where
  lhsContracting := [3]
  rhsContracting := [1]
  lhsNonContracting := [0, 1, 2]
  rhsNonContracting := [0]
  lhsBatch := []
  rhsBatch := []
  wf := dot_S4x8x2048x64_S64x64_S4x8x2048x64_3_1_012_0_n_n_wf
def dot_S4x8x2048x64_S4x8x2048x64_S4x8x2048x2048_3_3_2_2_01_01 : DotDims S4x8x2048x64 S4x8x2048x64 S4x8x2048x2048 where
  lhsContracting := [3]
  rhsContracting := [3]
  lhsNonContracting := [2]
  rhsNonContracting := [2]
  lhsBatch := [0, 1]
  rhsBatch := [0, 1]
  wf := dot_S4x8x2048x64_S4x8x2048x64_S4x8x2048x2048_3_3_2_2_01_01_wf
def dot_S4x8x2048x2048_S4x8x2048x64_S4x8x2048x64_3_2_2_3_01_01 : DotDims S4x8x2048x2048 S4x8x2048x64 S4x8x2048x64 where
  lhsContracting := [3]
  rhsContracting := [2]
  lhsNonContracting := [2]
  rhsNonContracting := [3]
  lhsBatch := [0, 1]
  rhsBatch := [0, 1]
  wf := dot_S4x8x2048x2048_S4x8x2048x64_S4x8x2048x64_3_2_2_3_01_01_wf

class Facts : Prop extends Facts₀ where

variable [Facts]
-- ==== Proof.KernelPieces.lean ====
/-
  What one grid point's body leaves behind, as values.

  The body runs in one of two ways.  At the first query tile of a group it projects the group's whole slab to keys
  and to values, stores both in the two carried buffers, reads them back, and then attends; at the second tile it
  finds the two buffers as the point before left them and only attends.  In both, the one store into the output block
  is the attention of the query tile — the 1024 rows of the slab starting at row 1024 * (tile number) — against the
  keys and values in the buffers.

  Stated for any value type: the stores cover their buffers with one piece each, so what a buffer holds afterwards is
  that piece's payload, and a load of a whole buffer reads its contents.
-/
import proofs.«126839_j50611894616484_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The query tile of grid point `i`: the 1024 rows of the staged slab from the row offset the body computes. -/
def tile (i : grid0.Coords) (x0 : Vec F S1x2048x64 .f32) : Vec F S1x1024x64 .f32 :=
  View.ld x0 (Rect.unit (s := S1x2048x64) (k0_off1 i) S1x1024x64.size (k0_off1_inb i))

/-- First tile of a group: the key buffer ends holding the slab's key projection. -/
theorem keys_A (c : Dev nD) (i : grid0.Coords) (arg2 : Memref sig .tc .vmem S1x2048x64 .f32) (harg2 : arg2.IsWhole) (arg3 : Memref sig .tc .vmem S64x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S64x64 .f32) (harg7 : arg7.IsWhole) (arg8 : Memref sig .tc .vmem S64 .f32) (harg8 : arg8.IsWhole) (arg9 : Memref sig .tc .vmem S1x1024x64 .f32) (harg9 : arg9.IsWhole) (arg10 : Memref sig .tc .vmem S2048x64 .bf16) (harg10 : arg10.IsWhole) (arg11 : Memref sig .tc .vmem S2048x64 .bf16) (harg11 : arg11.IsWhole) (hc0 : cond0_0 i)
    (x0 : Vec F S1x2048x64 .f32) (x1 : Vec F S64x64 .f32) (x2 : Vec F S64 .f32) (x3 : Vec F S64x64 .f32) (x4 : Vec F S64 .f32) (x5 : Vec F S64x64 .f32) (x6 : Vec F S64 .f32) :
    sout0_A_0 c i arg2 harg2 arg3 harg3 arg4 harg4 arg5 harg5 arg6 harg6 arg7 harg7 arg8 harg8 arg9 harg9 arg10 harg10 arg11 harg11 hc0 x0 x1 x2 x3 x4 x5 x6 = k0_pay3 x0 x3 x4 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 x0 x1 x2 x3 x4 x5 x6)]
  unfold kernelRun0_A
  dsimp only
  sl_unfold_words
  rw [View.canon_unit_zero hz2]
  simp only [View.readAt_eq_ld, harg2.read_unread, harg5.read_unread, harg6.read_unread,
    View.ld_unit_zero (S := S1x2048x64) hz3, View.ld_unit_zero (S := S64x64) hz2, View.ld_unit_zero (S := S64) hz1]

/-- First tile of a group: the value buffer ends holding the slab's value projection. -/
theorem values_A (c : Dev nD) (i : grid0.Coords) (arg2 : Memref sig .tc .vmem S1x2048x64 .f32) (harg2 : arg2.IsWhole) (arg3 : Memref sig .tc .vmem S64x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S64x64 .f32) (harg7 : arg7.IsWhole) (arg8 : Memref sig .tc .vmem S64 .f32) (harg8 : arg8.IsWhole) (arg9 : Memref sig .tc .vmem S1x1024x64 .f32) (harg9 : arg9.IsWhole) (arg10 : Memref sig .tc .vmem S2048x64 .bf16) (harg10 : arg10.IsWhole) (arg11 : Memref sig .tc .vmem S2048x64 .bf16) (harg11 : arg11.IsWhole) (hc0 : cond0_0 i)
    (x0 : Vec F S1x2048x64 .f32) (x1 : Vec F S64x64 .f32) (x2 : Vec F S64 .f32) (x3 : Vec F S64x64 .f32) (x4 : Vec F S64 .f32) (x5 : Vec F S64x64 .f32) (x6 : Vec F S64 .f32) :
    sout0_A_1 c i arg2 harg2 arg3 harg3 arg4 harg4 arg5 harg5 arg6 harg6 arg7 harg7 arg8 harg8 arg9 harg9 arg10 harg10 arg11 harg11 hc0 x0 x1 x2 x3 x4 x5 x6 = k0_pay4 x0 x5 x6 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 x0 x1 x2 x3 x4 x5 x6)]
  unfold kernelRun0_A
  dsimp only
  sl_unfold_words
  rw [View.canon_unit_zero hz2]
  simp only [View.readAt_eq_ld, harg2.read_unread, harg7.read_unread, harg8.read_unread,
    View.ld_unit_zero (S := S1x2048x64) hz3, View.ld_unit_zero (S := S64x64) hz2, View.ld_unit_zero (S := S64) hz1]

/-- First tile of a group: the output block is the tile's attention against the projections just stored. -/
theorem out_A (c : Dev nD) (i : grid0.Coords) (arg2 : Memref sig .tc .vmem S1x2048x64 .f32) (harg2 : arg2.IsWhole) (arg3 : Memref sig .tc .vmem S64x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S64x64 .f32) (harg7 : arg7.IsWhole) (arg8 : Memref sig .tc .vmem S64 .f32) (harg8 : arg8.IsWhole) (arg9 : Memref sig .tc .vmem S1x1024x64 .f32) (harg9 : arg9.IsWhole) (arg10 : Memref sig .tc .vmem S2048x64 .bf16) (harg10 : arg10.IsWhole) (arg11 : Memref sig .tc .vmem S2048x64 .bf16) (harg11 : arg11.IsWhole) (hc0 : cond0_0 i)
    (x0 : Vec F S1x2048x64 .f32) (x1 : Vec F S64x64 .f32) (x2 : Vec F S64 .f32) (x3 : Vec F S64x64 .f32) (x4 : Vec F S64 .f32) (x5 : Vec F S64x64 .f32) (x6 : Vec F S64 .f32) :
    out0_A_7 c i arg2 harg2 arg3 harg3 arg4 harg4 arg5 harg5 arg6 harg6 arg7 harg7 arg8 harg8 arg9 harg9 arg10 harg10 arg11 harg11 hc0 x0 x1 x2 x3 x4 x5 x6
      = k0_pay1 (k0_pay5 (tile i x0) x1 x2 (k0_pay3 x0 x3 x4) (k0_pay4 x0 x5 x6)) := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 hc0 x0 x1 x2 x3 x4 x5 x6)]
  unfold kernelRun0_A
  dsimp only
  sl_unfold_words
  rw [View.canon_unit_zero hz3]
  simp only [View.readCov_unit_zero (S := S2048x64) _ hz2]
  simp only [View.readAt_eq_ld, harg2.read_unread, harg3.read_unread, harg4.read_unread, harg5.read_unread,
    harg6.read_unread, harg7.read_unread, harg8.read_unread,
    View.ld_unit_zero (S := S1x2048x64) hz3, View.ld_unit_zero (S := S64x64) hz2, View.ld_unit_zero (S := S64) hz1]
  rfl

/-- Second tile of a group: the output block is the tile's attention against what the buffers already hold. -/
theorem out_B (c : Dev nD) (i : grid0.Coords) (arg2 : Memref sig .tc .vmem S1x2048x64 .f32) (harg2 : arg2.IsWhole) (arg3 : Memref sig .tc .vmem S64x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S64x64 .f32) (harg7 : arg7.IsWhole) (arg8 : Memref sig .tc .vmem S64 .f32) (harg8 : arg8.IsWhole) (arg9 : Memref sig .tc .vmem S1x1024x64 .f32) (harg9 : arg9.IsWhole) (arg10 : Memref sig .tc .vmem S2048x64 .bf16) (harg10 : arg10.IsWhole) (arg11 : Memref sig .tc .vmem S2048x64 .bf16) (harg11 : arg11.IsWhole) (hc0 : ¬cond0_0 i)
    (x0 : Vec F S1x2048x64 .f32) (x1 : Vec F S64x64 .f32) (x2 : Vec F S64 .f32) (x3 : Vec F S64x64 .f32) (x4 : Vec F S64 .f32) (x5 : Vec F S64x64 .f32) (x6 : Vec F S64 .f32) (xs0 : Vec F S2048x64 .bf16) (xs1 : Vec F S2048x64 .bf16) :
    out0_B_7 c i arg2 harg2 arg3 harg3 arg4 harg4 arg5 harg5 arg6 harg6 arg7 harg7 arg8 harg8 arg9 harg9 arg10 harg10 arg11 harg11 hc0 x0 x1 x2 x3 x4 x5 x6 xs0 xs1
      = k0_pay1 (k0_pay5 (tile i x0) x1 x2 xs0 xs1) := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 hc0 x0 x1 x2 x3 x4 x5 x6 xs0 xs1)]
  unfold kernelRun0_B
  dsimp only
  sl_unfold_words
  rw [View.canon_unit_zero hz3]
  simp only [View.readAt_eq_ld, harg2.read_unread, harg3.read_unread, harg4.read_unread, harg10.read_unread,
    harg11.read_unread,
    View.ld_unit_zero (S := S64x64) hz2, View.ld_unit_zero (S := S64) hz1, View.ld_unit_zero (S := S2048x64) hz2]
  rfl

end Cert.KernelIdeal.Pieces

end
-- ==== Proof.AttnSpec.lean ====
/-
  Single-head self-attention of one group, entry by entry, on the extended reals.

  A group is a slab X of rows (tokens), each a vector of 64 features.  With weights W (64 x 64) and bias b, a row's
  projection is  proj X W b t d = (sum over c of X t c * W d c) + b d   (the row times the transpose of W, plus b).
  Queries, keys and values are the projections by (Wq, bq), (Wk, bk), (Wv, bv).  The score of query row i against
  key row j is  (sum over d of q i d * k j d) * 1/8.  A row of scores s is turned into weights by the softmax taken
  with the row maximum subtracted:  exp (s j - max s) / (sum over j' of exp (s j' - max s)),  the maximum taken from
  minus infinity.  The output row is the weighted sum of the value rows.

  The query rows may be any family Xq (a tile of the slab, or the whole slab); the entry for query row i depends on
  Xq only through row i, which is what lets a tile's rows be read as rows of the slab ('attn_congr_row').
-/
import Idealize.ShloMosaic.PureOps.Ideal
import Idealize.ShloMosaic.Lib.ValueIdx

noncomputable section

namespace Cert.Attn

open Idealize.ShloMosaic Idealize.ShloMosaic.ValueIdx

/-- The scale 1/8, as the kernel spells it. -/
abbrev eighth : EReal := Ideal.ofBits .f32 0x3E000000#32
/-- Minus infinity, as both programs spell it. -/
abbrev negInf : EReal := Ideal.ofBits .f32 0xFF800000#32

variable {ι κ : Type} [Fintype κ]

/-- A row of X times the transpose of W, plus b. -/
def proj (X : ι → Fin 64 → EReal) (W : Fin 64 → Fin 64 → EReal) (b : Fin 64 → EReal) (t : ι) (d : Fin 64) : EReal :=
  (∑ c : Fin 64, X t c * W d c) + b d

/-- The scaled inner product of query row i and key row j. -/
def score (Q : ι → Fin 64 → EReal) (K : κ → Fin 64 → EReal) (i : ι) (j : κ) : EReal :=
  (∑ d : Fin 64, Q i d * K j d) * eighth

/-- The maximum of a row of scores, from minus infinity. -/
def rowMax (s : κ → EReal) : EReal := (Finset.univ : Finset κ).fold max negInf s

/-- The exponential of a score with the row maximum subtracted. -/
def expRow (s : κ → EReal) (j : κ) : EReal := Ideal.exp (s j - rowMax s)

/-- The softmax weight of entry j of a row of scores. -/
def weight (s : κ → EReal) (j : κ) : EReal := Ideal.div (expRow s j) (∑ j' : κ, expRow s j')

/-- The weighted sum of the value rows. -/
def attend (S : ι → κ → EReal) (V : κ → Fin 64 → EReal) (i : ι) (c : Fin 64) : EReal :=
  ∑ j : κ, weight (S i) j * V j c

/-- Attention of the query rows Xq over the slab X. -/
def attn (Xq : ι → Fin 64 → EReal) (X : κ → Fin 64 → EReal) (Wq : Fin 64 → Fin 64 → EReal) (bq : Fin 64 → EReal)
    (Wk : Fin 64 → Fin 64 → EReal) (bk : Fin 64 → EReal) (Wv : Fin 64 → Fin 64 → EReal) (bv : Fin 64 → EReal)
    (i : ι) (c : Fin 64) : EReal :=
  attend (score (proj Xq Wq bq) (proj X Wk bk)) (proj X Wv bv) i c

/-- The entry for a query row depends on the query rows only through that row. -/
theorem attn_congr_row {ι' : Type} (Xq : ι → Fin 64 → EReal) (Xq' : ι' → Fin 64 → EReal) (X : κ → Fin 64 → EReal)
    (Wq : Fin 64 → Fin 64 → EReal) (bq : Fin 64 → EReal) (Wk : Fin 64 → Fin 64 → EReal) (bk : Fin 64 → EReal)
    (Wv : Fin 64 → Fin 64 → EReal) (bv : Fin 64 → EReal) (i : ι) (i' : ι') (h : Xq i = Xq' i') (c : Fin 64) :
    attn Xq X Wq bq Wk bk Wv bv i c = attn Xq' X Wq bq Wk bk Wv bv i' c := by
  have hs : score (proj Xq Wq bq) (proj X Wk bk) i = score (proj Xq' Wq bq) (proj X Wk bk) i' := by
    funext j
    simp only [score, proj, h]
  simp only [attn, attend, hs]

/-! ## Arrays read as families of rows -/

/-- A 1 x n x 64 block as n rows of 64 entries. -/
abbrev rows3 {n : ℕ} (x : (⟨3, ![1, n, 64]⟩ : Shape).Idx → EReal) : Fin n → Fin 64 → EReal :=
  fun t c => x (ix3 (0 : Fin 1) t c)
/-- An n x 64 matrix as n rows of 64 entries. -/
abbrev rows2 {n : ℕ} (x : (⟨2, ![n, 64]⟩ : Shape).Idx → EReal) : Fin n → Fin 64 → EReal :=
  fun t c => x (ix2 t c)
/-- A 64 x 64 weight matrix by (output feature, input feature). -/
abbrev mat (w : (⟨2, ![64, 64]⟩ : Shape).Idx → EReal) : Fin 64 → Fin 64 → EReal := fun d c => w (ix2 d c)
/-- A bias vector by feature. -/
abbrev vec (b : (⟨1, ![64]⟩ : Shape).Idx → EReal) : Fin 64 → EReal := fun d => b (ix1 d)

/-! ## The whole arrays -/

/-- Group g of a 32 x 2048 x 64 array: its 2048 rows. -/
abbrev slab3 (x : (⟨3, ![32, 2048, 64]⟩ : Shape).Idx → EReal) (g : Fin 32) : Fin 2048 → Fin 64 → EReal :=
  fun t c => x (ix3 g t c)

/-- Batch b, head k of a 4 x 8 x 2048 x 64 array: its 2048 rows. -/
abbrev slab4 (x : (⟨4, ![4, 8, 2048, 64]⟩ : Shape).Idx → EReal) (b : Fin 4) (k : Fin 8) : Fin 2048 → Fin 64 → EReal :=
  fun t c => x (ix4 b k t c)

/-- Self-attention of every group of a 32 x 2048 x 64 array: entry (g, i, c) is the attention of group g's slab
    against itself, row i, feature c. -/
def G3 (x : (⟨3, ![32, 2048, 64]⟩ : Shape).Idx → EReal) (wq : (⟨2, ![64, 64]⟩ : Shape).Idx → EReal)
    (bq : (⟨1, ![64]⟩ : Shape).Idx → EReal) (wk : (⟨2, ![64, 64]⟩ : Shape).Idx → EReal) (bk : (⟨1, ![64]⟩ : Shape).Idx → EReal)
    (wv : (⟨2, ![64, 64]⟩ : Shape).Idx → EReal) (bv : (⟨1, ![64]⟩ : Shape).Idx → EReal) :
    (⟨3, ![32, 2048, 64]⟩ : Shape).Idx → EReal := fun idx =>
  attn (slab3 x ⟨(idx 0).val, (idx 0).isLt⟩) (slab3 x ⟨(idx 0).val, (idx 0).isLt⟩) (mat wq) (vec bq) (mat wk) (vec bk)
    (mat wv) (vec bv) ⟨(idx 1).val, (idx 1).isLt⟩ ⟨(idx 2).val, (idx 2).isLt⟩

/-- The same for a 4 x 8 x 2048 x 64 array, a group being a (batch, head) pair. -/
def G4 (x : (⟨4, ![4, 8, 2048, 64]⟩ : Shape).Idx → EReal) (wq : (⟨2, ![64, 64]⟩ : Shape).Idx → EReal)
    (bq : (⟨1, ![64]⟩ : Shape).Idx → EReal) (wk : (⟨2, ![64, 64]⟩ : Shape).Idx → EReal) (bk : (⟨1, ![64]⟩ : Shape).Idx → EReal)
    (wv : (⟨2, ![64, 64]⟩ : Shape).Idx → EReal) (bv : (⟨1, ![64]⟩ : Shape).Idx → EReal) :
    (⟨4, ![4, 8, 2048, 64]⟩ : Shape).Idx → EReal := fun idx =>
  attn (slab4 x ⟨(idx 0).val, (idx 0).isLt⟩ ⟨(idx 1).val, (idx 1).isLt⟩) (slab4 x ⟨(idx 0).val, (idx 0).isLt⟩ ⟨(idx 1).val, (idx 1).isLt⟩)
    (mat wq) (vec bq) (mat wk) (vec bk) (mat wv) (vec bv) ⟨(idx 2).val, (idx 2).isLt⟩ ⟨(idx 3).val, (idx 3).isLt⟩

end Cert.Attn

end
-- ==== Proof.LibMatmul.lean ====
/-
  A matrix product read at an entry.

  At the exact instance a matrix-unit product into a zero accumulator is, entry by entry, the textbook contraction:
  for an M x K left operand and a K x N right operand, entry (p, q) is the sum over k of lhs(p, k) * rhs(k, q)
  (`matmul_zero_plain_apply`); when the right operand is given as N x K and contracted along its second axis
  (a product with the transpose), entry (p, q) is the sum over k of lhs(p, k) * rhs(q, k) (`matmul_zero_nt_apply`).
  The dimension records are the ones with exactly those contracting and free axes and no batch axis.
-/
import Idealize.ShloMosaic.PureOps.Ideal.Laws
import Idealize.ShloMosaic.Lib.ValueIdx

noncomputable section

namespace Cert.MatmulAt

open Idealize.ShloMosaic Idealize.ShloMosaic.ValueIdx

/-- Rows times columns: contract the left operand's second axis with the right operand's first. -/
abbrev plainDims {M K N : ℕ} (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- Rows times rows: contract the second axis of both operands. -/
abbrev ntDims {M K N : ℕ} (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

theorem matmul_zero_plain_apply {M K N : ℕ} {φ₁ φ₂ : FTy}
    (wf : DotDims.WF ⟨2, ![M, K]⟩ ⟨2, ![K, N]⟩ ⟨2, ![M, N]⟩ [1] [0] [0] [1] [] [])
    (prec : Option ContractPrecision)
    (lhs : FVec Ideal ⟨2, ![M, K]⟩ φ₁) (rhs : FVec Ideal ⟨2, ![K, N]⟩ φ₂) (p : Fin M) (q : Fin N) :
    matmul (plainDims wf) prec lhs rhs (constant (F := Ideal) ⟨2, ![M, N]⟩ .f32 0x00000000#32) (ix2 p q)
      = ∑ k : Fin K, lhs (ix2 p k) * rhs (ix2 k q) := by
  simp only [matmul]
  rw [Ideal.matmul_constant_zero_apply, ← Equiv.sum_comp (contrEquiv1 (plainDims wf) K rfl rfl).symm]
  refine Finset.sum_congr rfl fun k _ => ?_
  have hk := contrEquiv1_symm_val (plainDims wf) K rfl rfl k
  have el : (plainDims wf).lhsIdx (ix2 p q) ((contrEquiv1 (plainDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((plainDims wf).lhsIdx_val_of_single rfl _ _).trans hk)
  have er : (plainDims wf).rhsIdx (ix2 p q) ((contrEquiv1 (plainDims wf) K rfl rfl).symm k) = ix2 k q :=
    funext fun a => Fin.ext (by
      match a with
      | ⟨0, _⟩ => exact ((plainDims wf).rhsIdx_val_of_single rfl _ _).trans hk
      | ⟨1, _⟩ =>
        unfold DotDims.rhsIdx
        split
        · rename_i hb; exact absurd hb List.not_mem_nil
        · split
          · rfl
          · rename_i hn; exact absurd (List.mem_singleton_self _) hn)
  rw [el, er]

theorem matmul_zero_nt_apply {M K N : ℕ} {φ₁ φ₂ : FTy}
    (wf : DotDims.WF ⟨2, ![M, K]⟩ ⟨2, ![N, K]⟩ ⟨2, ![M, N]⟩ [1] [1] [0] [0] [] [])
    (prec : Option ContractPrecision)
    (lhs : FVec Ideal ⟨2, ![M, K]⟩ φ₁) (rhs : FVec Ideal ⟨2, ![N, K]⟩ φ₂) (p : Fin M) (q : Fin N) :
    matmul (ntDims wf) prec lhs rhs (constant (F := Ideal) ⟨2, ![M, N]⟩ .f32 0x00000000#32) (ix2 p q)
      = ∑ k : Fin K, lhs (ix2 p k) * rhs (ix2 q k) := by
  simp only [matmul]
  rw [Ideal.matmul_constant_zero_apply, ← Equiv.sum_comp (contrEquiv1 (ntDims wf) K rfl rfl).symm]
  refine Finset.sum_congr rfl fun k _ => ?_
  have hk := contrEquiv1_symm_val (ntDims wf) K rfl rfl k
  have el : (ntDims wf).lhsIdx (ix2 p q) ((contrEquiv1 (ntDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((ntDims wf).lhsIdx_val_of_single rfl _ _).trans hk)
  have er : (ntDims wf).rhsIdx (ix2 p q) ((contrEquiv1 (ntDims wf) K rfl rfl).symm k) = ix2 q k :=
    funext fun a => Fin.ext (by
      match a with
      | ⟨0, _⟩ =>
        unfold DotDims.rhsIdx
        split
        · rename_i hb; exact absurd hb List.not_mem_nil
        · split
          · rfl
          · rename_i hn; exact absurd (List.mem_singleton_self _) hn
      | ⟨1, _⟩ => exact ((ntDims wf).rhsIdx_val_of_single rfl _ _).trans hk)
  rw [el, er]

end Cert.MatmulAt

end
-- ==== Proof.LibKeepdims.lean ====
/-
  A vector kept as a column, read at an index: the two layout steps a row reduction with a kept axis goes through.
  A length-`a` vector cast to an `a × 1` column holds entry `i` at `(i, 0)` (the row-major position is unchanged),
  and an `a × 1` column broadcast to `a × b` holds, all along row `i`, the column's entry `(i, 0)`.
  (The transposed form, a `1 × a` row broadcast down the columns, and the transpose itself are in the library.)
-/
import Idealize.ShloMosaic.Lib.Pipeline.Value
import Idealize.ShloMosaic.Lib.ValueIdx

namespace Cert.Keepdims

open Idealize.ShloMosaic Idealize.ShloMosaic.ValueIdx

variable {α : Type}

/-- A length-`a` vector cast to an `a × 1` column reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(i, j)`, the column at `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Cert.Keepdims
-- ==== Proof.LibColumnCasts.lean ====
/-
  Shape casts between a vector and the column that holds it, read at an index given by coordinates.

  A vector of `a` entries and an `a` by 1 column list the same entries in the same row-major order, so a cast either
  way reads entry `i` of the one at row `i` of the other; likewise a scalar and a 1 by 1 array hold one entry.  These
  are the "keepdims" forms a row sum meets when its result is kept as a column: the vector-to-column cast after the
  sum, the column-to-vector cast when the column is handed back as a vector, and the scalar-to-array cast of a total.
  Also here: the sum over a vector's indices as the sum over its coordinates, and a lane sum over the second axis of a
  matrix at the ideal values, as the plain sum over the columns of one row.
-/
import Idealize.ShloMosaic.Lib.Pipeline.Value
import Idealize.ShloMosaic.Lib.ValueIdx
import Idealize.ShloMosaic.PureOps.Ideal.Laws

namespace Cert.ColumnCasts

open Idealize.ShloMosaic Idealize.ShloMosaic.ValueIdx
open scoped BigOperators

variable {α : Type}

/-- An `[a]` vector cast to an `[a, 1]` column reads, at `(i, u)`, the vector at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to an `[a]` vector reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A scalar (rank 0) cast to a `[1, 1]` array reads, at its one index, the scalar: a rank-0 shape has one index. -/
theorem shapeCast_scalar_11_apply (x : (⟨0, ![]⟩ : Shape).Idx → α) (h : (⟨0, ![]⟩ : Shape).ShapeCasts ⟨2, ![1, 1]⟩)
    (j : (⟨2, ![1, 1]⟩ : Shape).Idx) : shapeCast ⟨2, ![1, 1]⟩ x h j = x ix0 :=
  congrArg x (funext fun d => d.elim0)

/-- The indices of a vector of `n` entries are its coordinates. -/
def vectorIdxEquiv {n : ℕ} : (⟨1, ![n]⟩ : Shape).Idx ≃ Fin n where
  toFun i := i 0
  invFun := ix1
  left_inv i := (eq_ix1 i).symm
  right_inv _ := rfl

/-- A sum over the indices of a vector is the sum over its coordinates. -/
theorem sum_vectorIdx {M : Type} [AddCommMonoid M] {n : ℕ} (f : (⟨1, ![n]⟩ : Shape).Idx → M) :
    ∑ i, f i = ∑ o : Fin n, f (ix1 o) :=
  (Equiv.sum_comp (vectorIdxEquiv (n := n)).symm f).symm

/-- At the ideal values the lane sum of an `[a, b]` matrix over its second axis is, at row `p`, the sum over the
    columns `k` of the entry `(p, k)`.  The accumulator is the zero word, which is the neutral element of the sum. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (funext fun d => Fin.ext (by
      match d with
      | ⟨0, _⟩ => rfl
      | ⟨1, _⟩ => rfl)))

end Cert.ColumnCasts
-- ==== Proof.LibRowMax.lean ====
/-
  A row maximum read at an index.

  At the exact values the lane maximum of an a x b matrix over its second axis, taken from minus infinity (the word
  0xFF800000 as accumulator), is at row p the maximum of the row's b entries: the fold of 'max' from minus infinity
  over the columns k of the entry (p, k).  This is the first step of a softmax over the last axis; the companion for
  the row sum is the same statement with '+' from zero.  The accumulator hypothesis is typed as a printed program
  carries it (an equation between two copies of the literal word).
-/
import Idealize.ShloMosaic.Lib.ValueIdx
import Idealize.ShloMosaic.PureOps.Ideal.Laws

noncomputable section

namespace Cert.RowMax

open Idealize.ShloMosaic Idealize.ShloMosaic.ValueIdx

/-- The lane maximum of a matrix over its second axis, from minus infinity, at row p: the fold of 'max' from minus
    infinity over the row's entries. -/
theorem laneMax_apply {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (p : Fin a) :
    multiReduction .maximumf [1] ⟨1, ![a]⟩ src 0xFF800000#32 h hφ hacc (ix1 p)
      = (Finset.univ : Finset (Fin b)).fold max (Ideal.ofBits .f32 0xFF800000#32) (fun k : Fin b => src (ix2 p k)) :=
  (Ideal.multiReduction_maximumf_single src 0xFF800000#32 h hφ hacc (ix1 p)).trans
    (congrArg (fun f => Finset.fold max (Ideal.ofBits .f32 0xFF800000#32) f (Finset.univ : Finset (Fin b)))
      (funext fun k => congrArg src (funext fun d => Fin.ext (by
        match d with
        | ⟨0, _⟩ => rfl
        | ⟨1, _⟩ => rfl))))

end Cert.RowMax

end
-- ==== Proof.KernelTile.lean ====
/-
  The body's arithmetic, entry by entry, at the exact values.

  Each projection the body computes is a matrix product with the transposed weights into a zero accumulator plus the
  bias repeated down the rows; the changes of float format in between are the identity on exact values.  So the
  stored key and value buffers are the slab's projections, and the output tile is, entry by entry, the attention of
  the tile's rows against whatever the two buffers hold: scores are the inner products of the query rows with the
  buffer's rows times 1/8; each row's maximum (from minus infinity) is subtracted, the exponentials are divided by
  their row sum, and the weights multiply the value buffer.

  The stages of the output tile are named here as the body spells them ('qv', 'sv', 'mv', 'ev', 'dv', 'wv'), the
  payload is their composition by definition ('tile_eq'), and each stage is read at an index.
-/
import proofs.«126839_j50611894616484_2_alg».proof.Proof.Gen.KernelIdeal.Skeleton
import proofs.«126839_j50611894616484_2_alg».proof.Proof.AttnSpec
import proofs.«126839_j50611894616484_2_alg».proof.Proof.LibMatmul
import proofs.«126839_j50611894616484_2_alg».proof.Proof.LibKeepdims
import proofs.«126839_j50611894616484_2_alg».proof.Proof.LibColumnCasts
import proofs.«126839_j50611894616484_2_alg».proof.Proof.LibRowMax
import Idealize.ShloMosaic.Lib.ValueLayout
import Idealize.ShloMosaic.Lib.ValueIdx
import Idealize.ShloMosaic.PureOps.Ideal.Laws

noncomputable section

namespace Cert.KernelIdeal.Tile

open Cert.KernelIdeal Cert.KernelIdeal.Gen Idealize.ShloMosaic Idealize.ShloMosaic.ValueIdx Cert.Attn Cert.MatmulAt

/-! ## A projection: rows times the transposed weights, plus the bias down the rows -/

/-- For an M-row block x (with its leading unit axis), 64 x 64 weights w and a bias b: entry (t, d) of
    'x * transpose w + b' is the projection of row t at feature d. -/
theorem linear_apply {M : ℕ} (wf : DotDims.WF ⟨2, ![M, 64]⟩ ⟨2, ![64, 64]⟩ ⟨2, ![M, 64]⟩ [1] [0] [0] [1] [] [])
    (x : FVec Ideal ⟨3, ![1, M, 64]⟩ .f32) (hx : (⟨3, ![1, M, 64]⟩ : Shape).ShapeCasts ⟨2, ![M, 64]⟩)
    (w : FVec Ideal ⟨2, ![64, 64]⟩ .f32) (hw : (⟨2, ![64, 64]⟩ : Shape).Transposes [1, 0] ⟨2, ![64, 64]⟩)
    (b : FVec Ideal ⟨1, ![64]⟩ .f32) (hb1 : (⟨1, ![64]⟩ : Shape).ShapeCasts ⟨2, ![1, 64]⟩)
    (hb2 : (⟨2, ![1, 64]⟩ : Shape).Broadcasts ⟨2, ![M, 64]⟩) (hlt : FTy.bits .bf16 < FTy.bits .f32)
    (t : Fin M) (d : Fin 64) :
    addf (matmul (plainDims wf) none (truncf .bf16 (shapeCast ⟨2, ![M, 64]⟩ x hx) hlt)
        (transpose ⟨2, ![64, 64]⟩ [1, 0] (truncf .bf16 w hlt) hw) (constant (F := Ideal) ⟨2, ![M, 64]⟩ .f32 0x00000000#32))
      (broadcastTo ⟨2, ![M, 64]⟩ (shapeCast ⟨2, ![1, 64]⟩ b hb1) hb2) (ix2 t d)
      = proj (rows3 x) (mat w) (vec b) t d := by
  show _ + _ = _ + _
  refine congrArg₂ (· + ·) ?_ ?_
  · refine (matmul_zero_plain_apply wf none _ _ t d).trans (Finset.sum_congr rfl fun c _ => ?_)
    refine congrArg₂ (· * ·) ?_ ?_
    · exact shapeCast_1ab_ab_apply x hx t c
    · exact transpose_ix2_apply (truncf .bf16 w hlt) hw c d
  · exact (broadcastTo_1b_ab_apply _ hb2 t d).trans (shapeCast_a_1a_apply b hb1 0 d)

/-- The key buffer's payload at (t, d): the key projection of the slab's row t. -/
theorem keys_apply (v38 : Vec Ideal S1x2048x64 .f32) (v41 : Vec Ideal S64x64 .f32) (v45 : Vec Ideal S64 .f32)
    (t : Fin 2048) (d : Fin 64) :
    k0_pay3 (F := Ideal) v38 v41 v45 (ix2 t d) = proj (rows3 v38) (mat v41) (vec v45) t d := by
  unfold k0_pay3 k0_pay2
  dsimp only
  refine (congrFun (shapeCast_self _ shapeCasts_S2048x64_S2048x64) (ix2 t d)).trans ?_
  exact linear_apply dot_S2048x64_S64x64_S2048x64_1_0_0_1_n_n_wf v38 shapeCasts_S1x2048x64_S2048x64 v41
    transposes_S64x64_p1_0_S64x64 v45 shapeCasts_S64_S1x64 broadcasts_S1x64_S2048x64 bitsLt_bf16_f32 t d

/-- The value buffer's payload at (t, d): the value projection of the slab's row t. -/
theorem values_apply (v38 : Vec Ideal S1x2048x64 .f32) (v43 : Vec Ideal S64x64 .f32) (v46 : Vec Ideal S64 .f32)
    (t : Fin 2048) (d : Fin 64) :
    k0_pay4 (F := Ideal) v38 v43 v46 (ix2 t d) = proj (rows3 v38) (mat v43) (vec v46) t d := by
  unfold k0_pay4 k0_pay2
  dsimp only
  refine (congrFun (shapeCast_self _ shapeCasts_S2048x64_S2048x64) (ix2 t d)).trans ?_
  exact linear_apply dot_S2048x64_S64x64_S2048x64_1_0_0_1_n_n_wf v38 shapeCasts_S1x2048x64_S2048x64 v43
    transposes_S64x64_p1_0_S64x64 v46 shapeCasts_S64_S1x64 broadcasts_S1x64_S2048x64 bitsLt_bf16_f32 t d

/-! ## The output tile's stages -/

/-- The query projection of the tile. -/
def qv (v6 : Vec Ideal S1x1024x64 .f32) (v9 : Vec Ideal S64x64 .f32) (v11 : Vec Ideal S64 .f32) : FVec Ideal S1024x64 .f32 :=
  addf (matmul dot_S1024x64_S64x64_S1024x64_1_0_0_1_n_n none (truncf .bf16 (shapeCast S1024x64 v6 shapeCasts_S1x1024x64_S1024x64) bitsLt_bf16_f32)
      (transpose S64x64 [1, 0] (truncf .bf16 v9 bitsLt_bf16_f32) transposes_S64x64_p1_0_S64x64) (constant S1024x64 .f32 0x00000000#32))
    (broadcastTo S1024x64 (shapeCast S1x64 v11 shapeCasts_S64_S1x64) broadcasts_S1x64_S1024x64)

/-- The scaled scores of the tile's queries against the key buffer. -/
def sv (Q : FVec Ideal S1024x64 .f32) (v18 : FVec Ideal S2048x64 .bf16) : FVec Ideal S1024x2048 .f32 :=
  mulf (matmul dot_S1024x64_S64x2048_S1024x2048_1_0_0_1_n_n none (truncf .bf16 Q bitsLt_bf16_f32)
      (transpose S64x2048 [1, 0] v18 transposes_S2048x64_p1_0_S64x2048) (constant S1024x2048 .f32 0x00000000#32))
    (broadcast S1024x2048 (Scalar.ofBits .f32 0x3E000000#32))

/-- Each row's maximum, repeated along the row. -/
def mv (S : FVec Ideal S1024x2048 .f32) : FVec Ideal S1024x2048 .f32 :=
  broadcastTo S1024x2048 (shapeCast S1024x1 (multiReduction .maximumf [1] S1024 S 0xFF800000#32 reduces_S1024x2048_S1024 (.inl rfl) rfl)
    shapeCasts_S1024_S1024x1) broadcasts_S1024x1_S1024x2048

/-- The exponentials of the scores with the row maximum subtracted. -/
def ev (S : FVec Ideal S1024x2048 .f32) : FVec Ideal S1024x2048 .f32 := exp (subf S (mv S))

/-- Each row's sum of exponentials, repeated along the row. -/
def dv (S : FVec Ideal S1024x2048 .f32) : FVec Ideal S1024x2048 .f32 :=
  broadcastTo S1024x2048 (shapeCast S1024x1 (multiReduction .add [1] S1024 (ev S) 0x00000000#32 reduces_S1024x2048_S1024 (.inl rfl) rfl)
    shapeCasts_S1024_S1024x1) broadcasts_S1024x1_S1024x2048

/-- The softmax weights. -/
def wv (S : FVec Ideal S1024x2048 .f32) : FVec Ideal S1024x2048 .bf16 := truncf .bf16 (divf (ev S) (dv S)) bitsLt_bf16_f32

/-- The output tile's payload is the weights times the value buffer, into a zero accumulator. -/
theorem tile_eq (v6 : Vec Ideal S1x1024x64 .f32) (v9 : Vec Ideal S64x64 .f32) (v11 : Vec Ideal S64 .f32)
    (v18 v19 : FVec Ideal S2048x64 .bf16) :
    k0_pay5 (F := Ideal) v6 v9 v11 v18 v19
      = matmul dot_S1024x2048_S2048x64_S1024x64_1_0_0_1_n_n none (wv (sv (qv v6 v9 v11) v18)) v19 (constant S1024x64 .f32 0x00000000#32) := rfl

/-! ## The stages at an index -/

theorem qv_apply (v6 : Vec Ideal S1x1024x64 .f32) (v9 : Vec Ideal S64x64 .f32) (v11 : Vec Ideal S64 .f32) (p : Fin 1024) (d : Fin 64) :
    qv v6 v9 v11 (ix2 p d) = proj (rows3 v6) (mat v9) (vec v11) p d := by
  unfold qv
  exact linear_apply dot_S1024x64_S64x64_S1024x64_1_0_0_1_n_n_wf v6 shapeCasts_S1x1024x64_S1024x64 v9
    transposes_S64x64_p1_0_S64x64 v11 shapeCasts_S64_S1x64 broadcasts_S1x64_S1024x64 bitsLt_bf16_f32 p d

theorem sv_apply (Q : FVec Ideal S1024x64 .f32) (v18 : FVec Ideal S2048x64 .bf16) (p : Fin 1024) (j : Fin 2048) :
    sv Q v18 (ix2 p j) = score (rows2 Q) (rows2 v18) p j := by
  unfold sv score
  refine (mulf_apply _ _ (ix2 p j)).trans ?_
  refine congrArg₂ (· * ·) ?_ rfl
  refine (matmul_zero_plain_apply dot_S1024x64_S64x2048_S1024x2048_1_0_0_1_n_n_wf none _ _ p j).trans
    (Finset.sum_congr rfl fun d _ => ?_)
  refine congrArg₂ (· * ·) rfl ?_
  exact transpose_ix2_apply v18 transposes_S2048x64_p1_0_S64x2048 d j

/-- A vector kept as a column and repeated along the rows reads, at (p, k), the vector's entry p. -/
theorem keepdims_apply (v : FVec Ideal S1024 .f32) (p : Fin 1024) (k : Fin 2048) :
    broadcastTo S1024x2048 (shapeCast S1024x1 v shapeCasts_S1024_S1024x1) broadcasts_S1024x1_S1024x2048 (ix2 p k) = v (ix1 p) :=
  (Cert.Keepdims.broadcastTo_a1_ab_apply _ broadcasts_S1024x1_S1024x2048 p k).trans
    (Cert.Keepdims.shapeCast_a_a1_apply v shapeCasts_S1024_S1024x1 p 0)

theorem mv_apply (S : FVec Ideal S1024x2048 .f32) (p : Fin 1024) (k : Fin 2048) :
    mv S (ix2 p k) = rowMax (fun k : Fin 2048 => S (ix2 p k)) := by
  unfold mv
  exact (keepdims_apply _ p k).trans (Cert.RowMax.laneMax_apply S reduces_S1024x2048_S1024 (.inl rfl) rfl p)

theorem ev_apply (S : FVec Ideal S1024x2048 .f32) (p : Fin 1024) (k : Fin 2048) :
    ev S (ix2 p k) = expRow (fun k : Fin 2048 => S (ix2 p k)) k := by
  unfold ev
  show Ideal.exp (S (ix2 p k) - mv S (ix2 p k)) = Ideal.exp (S (ix2 p k) - rowMax (fun k : Fin 2048 => S (ix2 p k)))
  rw [mv_apply]

theorem dv_apply (S : FVec Ideal S1024x2048 .f32) (p : Fin 1024) (k : Fin 2048) :
    dv S (ix2 p k) = ∑ j : Fin 2048, expRow (fun k : Fin 2048 => S (ix2 p k)) j := by
  unfold dv
  refine (keepdims_apply _ p k).trans ?_
  refine (Cert.ColumnCasts.rowSum_apply (ev S) reduces_S1024x2048_S1024 (.inl rfl) rfl p).trans
    (Finset.sum_congr rfl fun j _ => ev_apply S p j)

theorem wv_apply (S : FVec Ideal S1024x2048 .f32) (p : Fin 1024) (k : Fin 2048) :
    wv S (ix2 p k) = weight (fun k : Fin 2048 => S (ix2 p k)) k := by
  unfold wv
  show Ideal.div (ev S (ix2 p k)) (dv S (ix2 p k)) = Ideal.div _ _
  rw [ev_apply, dv_apply]

/-- THE OUTPUT TILE at (p, c): the attention of the tile's row p against the rows the two buffers hold. -/
theorem tile_apply (v6 : Vec Ideal S1x1024x64 .f32) (v9 : Vec Ideal S64x64 .f32) (v11 : Vec Ideal S64 .f32)
    (v18 v19 : FVec Ideal S2048x64 .bf16) (p : Fin 1024) (c : Fin 64) :
    k0_pay5 (F := Ideal) v6 v9 v11 v18 v19 (ix2 p c)
      = attend (score (proj (rows3 v6) (mat v9) (vec v11)) (rows2 v18)) (rows2 v19) p c := by
  rw [tile_eq]
  refine (matmul_zero_plain_apply dot_S1024x2048_S2048x64_S1024x64_1_0_0_1_n_n_wf none _ v19 p c).trans ?_
  unfold attend
  refine Finset.sum_congr rfl fun j _ => congrArg₂ (· * ·) ?_ rfl
  refine (wv_apply _ p j).trans ?_
  refine congrArg (fun s => weight s j) (funext fun k => ?_)
  refine (sv_apply _ v18 p k).trans ?_
  show score _ _ p k = score _ _ p k
  unfold score
  refine congrArg₂ (· * ·) (Finset.sum_congr rfl fun d _ => congrArg₂ (· * ·) ?_ rfl) rfl
  exact qv_apply v6 v9 v11 p d

/-- The stored block (the tile with its leading unit axis put back) at (u, p, c). -/
theorem stored_apply (v34 : FVec Ideal S1024x64 .f32) (u : Fin 1) (p : Fin 1024) (c : Fin 64) :
    k0_pay1 (F := Ideal) v34 (ix3 u p c) = v34 (ix2 p c) := by
  unfold k0_pay1
  exact shapeCast_ab_1ab_apply v34 shapeCasts_S1024x64_S1x1024x64 u p c

/-- ONE GRID POINT'S STORED BLOCK at (u, p, c), when the two buffers hold the slab's key and value projections: the
    attention of the tile's row p against the slab. -/
theorem point_apply (tl : Vec Ideal S1x1024x64 .f32) (x0 : Vec Ideal S1x2048x64 .f32) (x1 : Vec Ideal S64x64 .f32)
    (x2 : Vec Ideal S64 .f32) (x3 : Vec Ideal S64x64 .f32) (x4 : Vec Ideal S64 .f32) (x5 : Vec Ideal S64x64 .f32)
    (x6 : Vec Ideal S64 .f32) (u : Fin 1) (p : Fin 1024) (c : Fin 64) :
    k0_pay1 (F := Ideal) (k0_pay5 (F := Ideal) tl x1 x2 (k0_pay3 (F := Ideal) x0 x3 x4) (k0_pay4 (F := Ideal) x0 x5 x6)) (ix3 u p c)
      = attn (rows3 tl) (rows3 x0) (mat x1) (vec x2) (mat x3) (vec x4) (mat x5) (vec x6) p c := by
  refine (stored_apply _ u p c).trans ?_
  refine (tile_apply tl x1 x2 _ _ p c).trans ?_
  have hk : rows2 (k0_pay3 (F := Ideal) x0 x3 x4) = proj (rows3 x0) (mat x3) (vec x4) :=
    funext fun t => funext fun d => keys_apply x0 x3 x4 t d
  have hv : rows2 (k0_pay4 (F := Ideal) x0 x5 x6) = proj (rows3 x0) (mat x5) (vec x6) :=
    funext fun t => funext fun d => values_apply x0 x5 x6 t d
  rw [hk, hv]
  rfl

end Cert.KernelIdeal.Tile

end
-- ==== Proof.KernelArray.lean ====
import proofs.«126839_j50611894616484_2_alg».proof.Proof.Gen.KernelIdeal.Frame
import proofs.«126839_j50611894616484_2_alg».proof.Proof.KernelPieces
import proofs.«126839_j50611894616484_2_alg».proof.Proof.KernelTile
import proofs.«126839_j50611894616484_2_alg».proof.Proof.AttnSpec
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Arr

open Cert.KernelIdeal Cert.KernelIdeal.Gen Cert.KernelIdeal.Pieces Cert.KernelIdeal.Tile Cert.Attn

variable (m : (ℓ : Loc nD τ sig) → Buf (Elt Ideal) ℓ) (ρ : Dev nD → PrngReg)

/-! ## Where each window's block sits, decided over the grid -/

/-- Point t works on group t / 2 and on query tile t mod 2: the slab window's block index is (t / 2, 0, 0), the output
    window's (t / 2, t mod 2, 0), the second grid coordinate t mod 2, and the weight and bias windows never move. -/
theorem grid_facts : ∀ t : Fin cfg0.N,
    win0_0.index t (0 : Fin 3) = t.val / 2 ∧ win0_0.index t (1 : Fin 3) = 0 ∧ win0_0.index t (2 : Fin 3) = 0
    ∧ win0_7.index t (0 : Fin 3) = t.val / 2 ∧ win0_7.index t (1 : Fin 3) = t.val % 2 ∧ win0_7.index t (2 : Fin 3) = 0
    ∧ ((grid0.coords t) 1).val = t.val % 2
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0 :=
  (by decide +kernel : ∀ t : Fin grid0.N, _)

theorem lt64 (t : Fin cfg0.N) : t.val < 64 := lt_of_lt_of_eq t.isLt (show cfg0.N = 64 from N_0)

/-- The group a point works on. -/
abbrev grp (t : Fin cfg0.N) : Fin 32 := ⟨t.val / 2, by have := lt64 t; omega⟩

/-- The slab window's block at point t, as rows: the slab of the point's group. -/
theorem slab_rows (c : Dev nD) (t : Fin cfg0.N) :
    rows3 (n := 2048) (iblk m c 0 t) = slab3 (V m c main_v0) (grp t) := by
  obtain ⟨e0, e1, e2, -⟩ := grid_facts t
  funext p cc
  show V m c main_v0 (((cfg0.win 0).blk t).view.emb (ix3 (0 : Fin 1) p cc)) = V m c main_v0 (ix3 (grp t) p cc)
  refine congrArg (V m c main_v0) (funext fun a => Fin.ext ?_)
  match a with
  | ⟨0, _⟩ => show win0_0.index t (0 : Fin 3) * 1 + 1 * (0 : ℕ) = t.val / 2; omega
  | ⟨1, _⟩ => show win0_0.index t (1 : Fin 3) * 2048 + 1 * p.val = p.val; omega
  | ⟨2, _⟩ => show win0_0.index t (2 : Fin 3) * 64 + 1 * cc.val = cc.val; omega

/-! The weight and bias windows' one block is the whole array. -/

theorem blk1 (c : Dev nD) (t : Fin cfg0.N) : (iblk m c 1 t : Vec Ideal S64x64 .f32) = V m c main_arg1 := by
  obtain ⟨-, -, -, -, -, -, -, w10, w11, w20, w30, w31, w40, w50, w51, w60⟩ := grid_facts t
  refine funext fun (y : S64x64.Idx) => ?_
  show V m c main_arg1 (((cfg0.win 1).blk t).view.emb y) = V m c main_arg1 y
  refine congrArg (V m c main_arg1) (funext fun a => Fin.ext ?_)
  match a with
  | ⟨0, _⟩ => show win0_1.index t (0 : Fin 2) * 64 + 1 * (y 0).val = (y 0).val; omega
  | ⟨1, _⟩ => show win0_1.index t (1 : Fin 2) * 64 + 1 * (y 1).val = (y 1).val; omega

theorem blk2 (c : Dev nD) (t : Fin cfg0.N) : (iblk m c 2 t : Vec Ideal S64 .f32) = V m c main_arg2 := by
  obtain ⟨-, -, -, -, -, -, -, w10, w11, w20, w30, w31, w40, w50, w51, w60⟩ := grid_facts t
  refine funext fun (y : S64.Idx) => ?_
  show V m c main_arg2 (((cfg0.win 2).blk t).view.emb y) = V m c main_arg2 y
  refine congrArg (V m c main_arg2) (funext fun a => Fin.ext ?_)
  match a with
  | ⟨0, _⟩ => show win0_2.index t (0 : Fin 1) * 64 + 1 * (y 0).val = (y 0).val; omega

theorem blk3 (c : Dev nD) (t : Fin cfg0.N) : (iblk m c 3 t : Vec Ideal S64x64 .f32) = V m c main_arg3 := by
  obtain ⟨-, -, -, -, -, -, -, w10, w11, w20, w30, w31, w40, w50, w51, w60⟩ := grid_facts t
  refine funext fun (y : S64x64.Idx) => ?_
  show V m c main_arg3 (((cfg0.win 3).blk t).view.emb y) = V m c main_arg3 y
  refine congrArg (V m c main_arg3) (funext fun a => Fin.ext ?_)
  match a with
  | ⟨0, _⟩ => show win0_3.index t (0 : Fin 2) * 64 + 1 * (y 0).val = (y 0).val; omega
  | ⟨1, _⟩ => show win0_3.index t (1 : Fin 2) * 64 + 1 * (y 1).val = (y 1).val; omega

theorem blk4 (c : Dev nD) (t : Fin cfg0.N) : (iblk m c 4 t : Vec Ideal S64 .f32) = V m c main_arg4 := by
  obtain ⟨-, -, -, -, -, -, -, w10, w11, w20, w30, w31, w40, w50, w51, w60⟩ := grid_facts t
  refine funext fun (y : S64.Idx) => ?_
  show V m c main_arg4 (((cfg0.win 4).blk t).view.emb y) = V m c main_arg4 y
  refine congrArg (V m c main_arg4) (funext fun a => Fin.ext ?_)
  match a with
  | ⟨0, _⟩ => show win0_4.index t (0 : Fin 1) * 64 + 1 * (y 0).val = (y 0).val; omega

theorem blk5 (c : Dev nD) (t : Fin cfg0.N) : (iblk m c 5 t : Vec Ideal S64x64 .f32) = V m c main_arg5 := by
  obtain ⟨-, -, -, -, -, -, -, w10, w11, w20, w30, w31, w40, w50, w51, w60⟩ := grid_facts t
  refine funext fun (y : S64x64.Idx) => ?_
  show V m c main_arg5 (((cfg0.win 5).blk t).view.emb y) = V m c main_arg5 y
  refine congrArg (V m c main_arg5) (funext fun a => Fin.ext ?_)
  match a with
  | ⟨0, _⟩ => show win0_5.index t (0 : Fin 2) * 64 + 1 * (y 0).val = (y 0).val; omega
  | ⟨1, _⟩ => show win0_5.index t (1 : Fin 2) * 64 + 1 * (y 1).val = (y 1).val; omega

theorem blk6 (c : Dev nD) (t : Fin cfg0.N) : (iblk m c 6 t : Vec Ideal S64 .f32) = V m c main_arg6 := by
  obtain ⟨-, -, -, -, -, -, -, w10, w11, w20, w30, w31, w40, w50, w51, w60⟩ := grid_facts t
  refine funext fun (y : S64.Idx) => ?_
  show V m c main_arg6 (((cfg0.win 6).blk t).view.emb y) = V m c main_arg6 y
  refine congrArg (V m c main_arg6) (funext fun a => Fin.ext ?_)
  match a with
  | ⟨0, _⟩ => show win0_6.index t (0 : Fin 1) * 64 + 1 * (y 0).val = (y 0).val; omega

/-- The query tile of point t: row p of the tile is row 1024 * (t mod 2) + p of the staged slab. -/
theorem tile_row (t : Fin cfg0.N) (x0 : Vec Ideal S1x2048x64 .f32) (p : Fin 1024) :
    rows3 (tile (grid0.coords t) x0) p
      = rows3 x0 ⟨1024 * (t.val % 2) + p.val, by have := p.isLt; omega⟩ := by
  obtain ⟨-, -, -, -, -, -, ec, -⟩ := grid_facts t
  have hoff := k0_off1_eq (grid0.coords t)
  funext cc
  show x0 ((Rect.unit (s := S1x2048x64) (k0_off1 (grid0.coords t)) S1x1024x64.size (k0_off1_inb (grid0.coords t))).idx (ix3 (0 : Fin 1) p cc))
    = x0 (ix3 (0 : Fin 1) _ cc)
  refine congrArg x0 (funext fun a => Fin.ext ?_)
  match a with
  | ⟨0, _⟩ => show k0_off1 (grid0.coords t) 0 + 1 * (0 : ℕ) = 0; rw [hoff]; rfl
  | ⟨1, _⟩ =>
    show k0_off1 (grid0.coords t) 1 + 1 * p.val = 1024 * (t.val % 2) + p.val
    rw [hoff]
    show 1024 * ((grid0.coords t) 1).val + 1 * p.val = _
    rw [ec]; omega
  | ⟨2, _⟩ => show k0_off1 (grid0.coords t) 2 + 1 * cc.val = cc.val; rw [hoff]; show 0 + 1 * cc.val = cc.val; omega

/-! ## What the carried buffers hold: the projections of the point's group -/

set_option maxHeartbeats 6400000 in
/-- After a group's first point the key buffer holds, row by row, the key projection of the group's slab. -/
theorem keys_rows (c : Dev nD) (t : Fin cfg0.N) (h0 : t.val % 2 = 0) :
    rows2 (n := 2048) (outsAt0 m c t.val t.isLt).2.1
      = proj (slab3 (V m c main_v0) (grp t)) (mat (V m c main_arg3)) (vec (V m c main_arg4)) := by
  have e1 : (outsAt0 m c t.val t.isLt).2.1 = k0_pay3 (F := Ideal) (iblk m c 0 t) (iblk m c 3 t) (iblk m c 4 t) :=
    (congrArg (fun z => z.2.1) (outsAt0_A m c t h0)).trans
      (keys_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t))
  rw [e1]
  funext j d
  show k0_pay3 (F := Ideal) _ _ _ (ix2 j d) = _
  rw [keys_apply, slab_rows m c t, blk3 m c t, blk4 m c t]

set_option maxHeartbeats 6400000 in
/-- After a group's first point the value buffer holds, row by row, the value projection of the group's slab. -/
theorem values_rows (c : Dev nD) (t : Fin cfg0.N) (h0 : t.val % 2 = 0) :
    rows2 (n := 2048) (outsAt0 m c t.val t.isLt).2.2
      = proj (slab3 (V m c main_v0) (grp t)) (mat (V m c main_arg5)) (vec (V m c main_arg6)) := by
  have e1 : (outsAt0 m c t.val t.isLt).2.2 = k0_pay4 (F := Ideal) (iblk m c 0 t) (iblk m c 5 t) (iblk m c 6 t) :=
    (congrArg (fun z => z.2.2) (outsAt0_A m c t h0)).trans
      (values_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t))
  rw [e1]
  funext j d
  show k0_pay4 (F := Ideal) _ _ _ (ix2 j d) = _
  rw [values_apply, slab_rows m c t, blk5 m c t, blk6 m c t]

/-! ## What a point stores: the attention of its tile's rows against its group's slab -/

set_option maxHeartbeats 6400000 in
/-- The stored block of point t at (u, p, cc), given that the two buffers hold the group's projections. -/
theorem stored_of_buffers (c : Dev nD) (t : Fin cfg0.N) (u : Fin 1) (p : Fin 1024) (cc : Fin 64)
    (ks vs : FVec Ideal S2048x64 .bf16)
    (hk : rows2 (n := 2048) ks = proj (slab3 (V m c main_v0) (grp t)) (mat (V m c main_arg3)) (vec (V m c main_arg4)))
    (hv : rows2 (n := 2048) vs = proj (slab3 (V m c main_v0) (grp t)) (mat (V m c main_arg5)) (vec (V m c main_arg6))) :
    k0_pay1 (F := Ideal) (k0_pay5 (F := Ideal) (tile (grid0.coords t) (iblk m c 0 t)) (iblk m c 1 t) (iblk m c 2 t) ks vs) (ix3 u p cc)
      = attn (slab3 (V m c main_v0) (grp t)) (slab3 (V m c main_v0) (grp t)) (mat (V m c main_arg1)) (vec (V m c main_arg2)) (mat (V m c main_arg3)) (vec (V m c main_arg4)) (mat (V m c main_arg5)) (vec (V m c main_arg6)) ⟨1024 * (t.val % 2) + p.val, by have := p.isLt; omega⟩ cc := by
  refine (stored_apply _ u p cc).trans ?_
  refine (tile_apply _ _ _ ks vs p cc).trans ?_
  rw [hk, hv, blk1 m c t, blk2 m c t]
  show attn (rows3 (tile (grid0.coords t) (iblk m c 0 t))) (slab3 (V m c main_v0) (grp t)) (mat (V m c main_arg1)) (vec (V m c main_arg2))
    (mat (V m c main_arg3)) (vec (V m c main_arg4)) (mat (V m c main_arg5)) (vec (V m c main_arg6)) p cc = _
  refine (attn_congr_row (rows3 (tile (grid0.coords t) (iblk m c 0 t))) (rows3 (n := 2048) (iblk m c 0 t)) _ _ _ _ _ _ _ p
    ⟨1024 * (t.val % 2) + p.val, by have := p.isLt; omega⟩ (tile_row t (iblk m c 0 t) p) cc).trans ?_
  rw [slab_rows m c t]

set_option maxHeartbeats 6400000 in
/-- THE STORED BLOCK of every point: at a group's first point the buffers were just filled; at its second they hold
    what the first left, and the two points share the group. -/
theorem point_out (c : Dev nD) (t : Fin cfg0.N) (u : Fin 1) (p : Fin 1024) (cc : Fin 64) :
    (outsAt0 m c t.val t.isLt).1 (ix3 u p cc)
      = attn (slab3 (V m c main_v0) (grp t)) (slab3 (V m c main_v0) (grp t)) (mat (V m c main_arg1)) (vec (V m c main_arg2)) (mat (V m c main_arg3)) (vec (V m c main_arg4)) (mat (V m c main_arg5)) (vec (V m c main_arg6)) ⟨1024 * (t.val % 2) + p.val, by have := p.isLt; omega⟩ cc := by
  by_cases h0 : t.val % 2 = 0
  · rw [outsAt0_A m c t h0]
    refine (congrFun (out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t)) (ix3 u p cc)).trans ?_
    refine stored_of_buffers m c t u p cc _ _ ?_ ?_
    · funext j d
      show k0_pay3 (F := Ideal) _ _ _ (ix2 j d) = _
      rw [keys_apply, slab_rows m c t, blk3 m c t, blk4 m c t]
    · funext j d
      show k0_pay4 (F := Ideal) _ _ _ (ix2 j d) = _
      rw [values_apply, slab_rows m c t, blk5 m c t, blk6 m c t]
  · have hlt : t.val - 1 < cfg0.N := Nat.lt_of_le_of_lt (Nat.sub_le _ _) t.isLt
    have hg : grp ⟨t.val - 1, hlt⟩ = grp t := Fin.ext (by show (t.val - 1) / 2 = t.val / 2; omega)
    have hev : (⟨t.val - 1, hlt⟩ : Fin cfg0.N).val % 2 = 0 := by show (t.val - 1) % 2 = 0; omega
    rw [outsAt0_B m c t h0]
    refine (congrFun (out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t)
      (outsAt0 m c (t.val - 1) hlt).2.1 (outsAt0 m c (t.val - 1) hlt).2.2) (ix3 u p cc)).trans ?_
    refine stored_of_buffers m c t u p cc _ _ ?_ ?_
    · exact (keys_rows m c ⟨t.val - 1, hlt⟩ hev).trans (by rw [hg])
    · exact (values_rows m c ⟨t.val - 1, hlt⟩ hev).trans (by rw [hg])

/-! ## From blocks to the array -/

/-- The whole-array function at an index whose coordinates are known. -/
theorem G3_at (x : (⟨3, ![32, 2048, 64]⟩ : Shape).Idx → EReal) (wq : (⟨2, ![64, 64]⟩ : Shape).Idx → EReal)
    (bq : (⟨1, ![64]⟩ : Shape).Idx → EReal) (wk : (⟨2, ![64, 64]⟩ : Shape).Idx → EReal) (bk : (⟨1, ![64]⟩ : Shape).Idx → EReal)
    (wv : (⟨2, ![64, 64]⟩ : Shape).Idx → EReal) (bv : (⟨1, ![64]⟩ : Shape).Idx → EReal)
    (idx : (⟨3, ![32, 2048, 64]⟩ : Shape).Idx) (g : Fin 32) (i : Fin 2048) (c : Fin 64)
    (h0 : (idx 0).val = g.val) (h1 : (idx 1).val = i.val) (h2 : (idx 2).val = c.val) :
    G3 x wq bq wk bk wv bv idx = attn (slab3 x g) (slab3 x g) (mat wq) (vec bq) (mat wk) (vec bk) (mat wv) (vec bv) i c := by
  obtain rfl : g = ⟨(idx 0).val, (idx 0).isLt⟩ := Fin.ext h0.symm
  obtain rfl : i = ⟨(idx 1).val, (idx 1).isLt⟩ := Fin.ext h1.symm
  obtain rfl : c = ⟨(idx 2).val, (idx 2).isLt⟩ := Fin.ext h2.symm
  rfl

/-- WHAT POINT t WRITES BACK is block t of the whole-array function of the arrays the region finds. -/
theorem flushed_eq (c : Dev nD) (t : Fin cfg0.N) :
    (dats m 0 c).flushed 7 t = ((cfg0.win 7).blk t).view.read (Elt Ideal) (G3 (V m c main_v0) (V m c main_arg1) (V m c main_arg2) (V m c main_arg3) (V m c main_arg4) (V m c main_arg5) (V m c main_arg6)) := by
  obtain ⟨-, -, -, f0, f1, f2, -⟩ := grid_facts t
  show (cfg0.win 7).cut (grid0.coords t) ((dats m 0 c).after 7 t) = _
  rw [after0_7]
  refine funext fun (y : S1x1024x64.Idx) => ?_
  obtain ⟨u, p, cc, rfl⟩ : ∃ (u : Fin 1) (p : Fin 1024) (cc : Fin 64), y = ix3 u p cc := ⟨y 0, y 1, y 2, eq_ix3 y⟩
  show (outsAt0 m c t.val t.isLt).1 (ix3 u p cc) = G3 (V m c main_v0) (V m c main_arg1) (V m c main_arg2) (V m c main_arg3) (V m c main_arg4) (V m c main_arg5) (V m c main_arg6) (((cfg0.win 7).blk t).view.emb (ix3 u p cc))
  rw [point_out m c t u p cc]
  refine (G3_at _ _ _ _ _ _ _ _ (grp t) ⟨1024 * (t.val % 2) + p.val, by have := p.isLt; omega⟩ cc ?_ ?_ ?_).symm
  · show win0_7.index t (0 : Fin 3) * 1 + 1 * u.val = t.val / 2
    have := u.isLt; omega
  · show win0_7.index t (1 : Fin 3) * 1024 + 1 * p.val = 1024 * (t.val % 2) + p.val
    omega
  · show win0_7.index t (2 : Fin 3) * 64 + 1 * cc.val = cc.val
    omega

/-- Every index of the output array is in some point's block: (g, i, c) in the block of point 2 g + i / 1024. -/
theorem cover (c : Dev nD) (i : S32x2048x64.Idx) :
    ∃ t : Fin cfg0.N, (cfg0.win 7).flush t = true ∧ i ∈ ((cfg0.win 7).blk t).view.set := by
  have hN : cfg0.N = 64 := N_0
  have h0 : (i 0).val < 32 := (i 0).isLt
  have h1 : (i 1).val < 2048 := (i 1).isLt
  have h2 : (i 2).val < 64 := (i 2).isLt
  obtain ⟨t, ht⟩ : ∃ t : Fin cfg0.N, t.val = 2 * (i 0).val + (i 1).val / 1024 := ⟨⟨_, by omega⟩, rfl⟩
  obtain ⟨-, -, -, f0, f1, f2, -⟩ := grid_facts t
  refine ⟨t, flush0_7 t, ?_⟩
  show i ∈ ((View.whole main_v1).slice (win0_7.rect t)).set
  rw [View.set_slice_whole, Rect.mem_set_unit]
  intro a
  match a with
  | ⟨0, _⟩ =>
    show win0_7.index t (0 : Fin 3) * 1 ≤ (i 0).val ∧ (i 0).val < win0_7.index t (0 : Fin 3) * 1 + 1
    omega
  | ⟨1, _⟩ =>
    show win0_7.index t (1 : Fin 3) * 1024 ≤ (i 1).val ∧ (i 1).val < win0_7.index t (1 : Fin 3) * 1024 + 1024
    omega
  | ⟨2, _⟩ =>
    show win0_7.index t (2 : Fin 3) * 64 ≤ (i 2).val ∧ (i 2).val < win0_7.index t (2 : Fin 3) * 64 + 64
    omega

/-- THE OUTPUT ARRAY after the region: self-attention of every group of the flattened input. -/
theorem final (c : Dev nD) : (dats m 0 c).arrAt 7 cfg0.N = G3 (V m c main_v0) (V m c main_arg1) (V m c main_arg2) (V m c main_arg3) (V m c main_arg4) (V m c main_arg5) (V m c main_arg6) :=
  (dats m 0 c).arrAt_eq_of_cover 7 (G3 (V m c main_v0) (V m c main_arg1) (V m c main_arg2) (V m c main_arg3) (V m c main_arg4) (V m c main_arg5) (V m c main_arg6)) (fun t _ => flushed_eq m c t) (cover c)

/-! ## The host operations around the region -/

/-- The region finds the input flattened to 32 groups. -/
theorem entry_x (c : Dev nD) :
    (V m c main_v0 : S32x2048x64.Idx → EReal)
      = shapeCast S32x2048x64 (m ((c : Thread nD τ).loc main_arg0)) shapeCasts_S4x8x2048x64_S32x2048x64 := by
  show StableHlo.after hostOps0 (fun b => m (c, b)) (Proc.devRef .tc main_v0) = _
  after_results
  rfl

/-- After the region the output array is split back into (batch, head). -/
theorem tail_eq (c : Dev nD) :
    Pipeline.afterTail₀ cfgs (dats m) 0 (V0 m) [hostOps1] c main_v2
      = shapeCast S4x8x2048x64 (G3 (V m c main_v0) (V m c main_arg1) (V m c main_arg2) (V m c main_arg3) (V m c main_arg4) (V m c main_arg5) (V m c main_arg6)) shapeCasts_S32x2048x64_S4x8x2048x64 := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.devRef .tc main_v1)
      = G3 (V m c main_v0) (V m c main_arg1) (V m c main_arg2) (V m c main_arg3) (V m c main_arg4) (V m c main_arg5) (V m c main_arg6) :=
    (Pipeline.withArrays_arr spec0 launch0.win.arr_inj c _ _ 7).trans (final m c)
  rw [hw]
  rfl

end Cert.KernelIdeal.Arr

end
-- ==== Proof.Bridge.lean ====
/-
  The two reshapes around the kernel.

  The kernel flattens (batch, head) into one group axis of 32 before the call and splits it back afterwards.  Both
  reshapes keep the row-major order, so group 8 * b + k of the flattened array is the slab of (b, k), and entry
  (b, k, i, c) of the split result is entry (8 * b + k, i, c) of the flat one.  Hence attention group by group on the
  flattened array, split back, is attention pair by pair on the original.
-/
import proofs.«126839_j50611894616484_2_alg».proof.Proof.AttnSpec
import Idealize.ShloMosaic.Lib.Pipeline.Value
import Idealize.ShloMosaic.Lib.ValueIdx

noncomputable section

namespace Cert.Attn

open Idealize.ShloMosaic Idealize.ShloMosaic.ValueIdx

/-- The group of the pair (b, k). -/
abbrev pairGroup (b : Fin 4) (k : Fin 8) : Fin 32 := ⟨8 * b.val + k.val, by have := b.isLt; have := k.isLt; omega⟩

/-- The flattened array at (8 b + k, t, c) is the original at (b, k, t, c). -/
theorem flatten_apply (x : (⟨4, ![4, 8, 2048, 64]⟩ : Shape).Idx → EReal)
    (h : (⟨4, ![4, 8, 2048, 64]⟩ : Shape).ShapeCasts ⟨3, ![32, 2048, 64]⟩) (b : Fin 4) (k : Fin 8) (t : Fin 2048) (c : Fin 64) :
    shapeCast ⟨3, ![32, 2048, 64]⟩ x h (ix3 (pairGroup b k) t c) = x (ix4 b k t c) :=
  shapeCast_apply x h _ _ (by
    rw [Shape.rowMajor_val_four, Shape.rowMajor_val_three]
    show ((b.val * 8 + k.val) * 2048 + t.val) * 64 + c.val = ((8 * b.val + k.val) * 2048 + t.val) * 64 + c.val
    omega)

/-- The split array at (b, k, i, c) is the flat one at (8 b + k, i, c). -/
theorem split_apply (y : (⟨3, ![32, 2048, 64]⟩ : Shape).Idx → EReal)
    (h : (⟨3, ![32, 2048, 64]⟩ : Shape).ShapeCasts ⟨4, ![4, 8, 2048, 64]⟩) (b : Fin 4) (k : Fin 8) (i : Fin 2048) (c : Fin 64) :
    shapeCast ⟨4, ![4, 8, 2048, 64]⟩ y h (ix4 b k i c) = y (ix3 (pairGroup b k) i c) :=
  shapeCast_apply y h _ _ (by
    rw [Shape.rowMajor_val_four, Shape.rowMajor_val_three]
    show ((8 * b.val + k.val) * 2048 + i.val) * 64 + c.val = ((b.val * 8 + k.val) * 2048 + i.val) * 64 + c.val
    omega)

/-- Attention group by group on the flattened array, split back, is attention pair by pair on the original. -/
theorem split_G3_flatten (x : (⟨4, ![4, 8, 2048, 64]⟩ : Shape).Idx → EReal) (wq : (⟨2, ![64, 64]⟩ : Shape).Idx → EReal)
    (bq : (⟨1, ![64]⟩ : Shape).Idx → EReal) (wk : (⟨2, ![64, 64]⟩ : Shape).Idx → EReal) (bk : (⟨1, ![64]⟩ : Shape).Idx → EReal)
    (wv : (⟨2, ![64, 64]⟩ : Shape).Idx → EReal) (bv : (⟨1, ![64]⟩ : Shape).Idx → EReal)
    (h : (⟨4, ![4, 8, 2048, 64]⟩ : Shape).ShapeCasts ⟨3, ![32, 2048, 64]⟩)
    (h' : (⟨3, ![32, 2048, 64]⟩ : Shape).ShapeCasts ⟨4, ![4, 8, 2048, 64]⟩) :
    shapeCast ⟨4, ![4, 8, 2048, 64]⟩ (G3 (shapeCast ⟨3, ![32, 2048, 64]⟩ x h) wq bq wk bk wv bv) h' = G4 x wq bq wk bk wv bv := by
  funext idx
  obtain ⟨b, k, i, c, rfl⟩ : ∃ (b : Fin 4) (k : Fin 8) (i : Fin 2048) (c : Fin 64), idx = ix4 b k i c :=
    ⟨idx 0, idx 1, idx 2, idx 3, eq_ix4 idx⟩
  rw [split_apply]
  have hs : slab3 (shapeCast ⟨3, ![32, 2048, 64]⟩ x h) (pairGroup b k) = slab4 x b k :=
    funext fun t => funext fun c' => flatten_apply x h b k t c'
  show attn (slab3 _ (pairGroup b k)) (slab3 _ (pairGroup b k)) _ _ _ _ _ _ i c = attn (slab4 x b k) (slab4 x b k) _ _ _ _ _ _ i c
  rw [hs]

end Cert.Attn

end
-- ==== Proof.KernelRun.lean ====
/-
  The kernel's run, read: its result array ends holding the self-attention of every (batch, head) slab of the input.

  The region leaves the attention of every group of the flattened input in its output array; the reshape after the
  region splits the group axis back, the reshape before it had flattened it, and the weight and bias arrays reach the
  region as launched.  So the result is 'Cert.Attn.G4' of the argument arrays, and the arguments end unchanged.
-/
import proofs.«126839_j50611894616484_2_alg».proof.Proof.KernelArray
import proofs.«126839_j50611894616484_2_alg».proof.Proof.Bridge

noncomputable section

open Idealize.ShloMosaic Idealize.ShloMosaic.TcCoe Idealize.SL.Sem Idealize.ShloMosaic.ValueIdx
open Idealize.ShloMosaic.Pipeline (Dat)

namespace Cert.KernelIdeal.Arr

open Cert.KernelIdeal Cert.KernelIdeal.Gen Cert.Attn

variable (m : (ℓ : Loc nD τ sig) → Buf (Elt Ideal) ℓ) (ρ : Dev nD → PrngReg)

/-- What the result buffer holds after the reshape that follows the region. -/
theorem result_eq (c : Dev nD) :
    Pipeline.afterTail₀ cfgs (dats m) 0 (V0 m) [hostOps1] c main_v2 = G4 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [tail_eq m c, entry_x m c, V_main_arg1 m c, V_main_arg2 m c, V_main_arg3 m c, V_main_arg4 m c, V_main_arg5 m c,
    V_main_arg6 m c]
  exact split_G3_flatten _ _ _ _ _ _ _ _ _

/-- Every weakly fair execution of the kernel's program ends with the result at the attention of the arguments and the
    arguments unchanged. -/
theorem run : θ_run defs (onTc (τ := τ) (main (F := Ideal))) ⟨m, fun _ => 0, ρ⟩ (fun r => ∀ c : Dev nD,
      r.2.mem ((c.tc : Thread nD τ).loc main_v2) = G4 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v2 (Pipeline.mem_restRefs_of main_v2 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c)))⟩)
    (run_main m ρ)

end Cert.KernelIdeal.Arr

end
-- ==== Proof.Scale.lean ====
/-
  The score scale.  The kernel multiplies every score by the binary constant 1/8; the reference divides it by
  sqrt 64.  Since sqrt 64 = 8 and a quotient by a nonzero real is the product with its reciprocal on the whole
  extended real line, the two are one operation.  The three bit patterns the two programs spell are evaluated here,
  once: 64, 1/8, and minus infinity (the value every row maximum starts from).
-/
import Idealize.ShloMosaic.PureOps.Ideal

noncomputable section

namespace Cert.Scale

open Idealize.ShloMosaic

/-- The pattern of `64.0` denotes the real 64. -/
theorem ofBits_64 : Ideal.ofBits .f32 0x42800000#32 = ((64 : ℝ) : EReal) := by
  simp [Ideal.ofBits, Ideal.ieee, -EReal.coe_mul]; norm_num

/-- The pattern of `0.125` denotes the real 1/8. -/
theorem ofBits_eighth : Ideal.ofBits .f32 0x3E000000#32 = ((1 / 8 : ℝ) : EReal) := by
  simp [Ideal.ofBits, Ideal.ieee, -EReal.coe_mul]; norm_num

/-- The pattern `0xFF800000` denotes minus infinity. -/
theorem ofBits_negInf : Ideal.ofBits .f32 0xFF800000#32 = (⊥ : EReal) := by
  simp [Ideal.ofBits, Ideal.ieee]

/-- The square root of 64 is 8. -/
theorem sqrt_64 : Ideal.sqrt ((64 : ℝ) : EReal) = ((8 : ℝ) : EReal) := by
  show (if (64 : ℝ) < 0 then (⊥ : EReal) else (Real.sqrt 64 : EReal)) = _
  rw [if_neg (by norm_num)]
  have h : Real.sqrt 64 = 8 := by
    rw [show (64 : ℝ) = 8 ^ 2 by norm_num]
    exact Real.sqrt_sq (by norm_num)
  rw [h]

/-- Dividing by sqrt 64 is multiplying by 1/8, for every extended real. -/
theorem div_sqrt_64 (x : EReal) :
    Ideal.div x (Ideal.sqrt (Ideal.ofBits .f32 0x42800000#32)) = x * Ideal.ofBits .f32 0x3E000000#32 := by
  rw [ofBits_64, sqrt_64, ofBits_eighth]
  exact Ideal.div_coe (by norm_num) x

/-- A maximum taken from minus infinity is the other operand. -/
theorem max_negInf (x : EReal) : max (Ideal.ofBits .f32 0xFF800000#32) x = x := by
  rw [ofBits_negInf]; exact max_eq_right bot_le

end Cert.Scale

end
-- ==== Proof.RefSide.lean ====
/-
  The reference, entry by entry: it is the attention of each group's slab against itself.

  The reference projects the whole input to queries, keys and values (a contraction with each weight matrix along the
  feature axis, plus the bias repeated over every row), takes for each (batch, head) pair the inner products of query
  rows with key rows divided by sqrt 64, applies the softmax along the last axis in the form with the row maximum
  subtracted — the maximum taken from minus infinity and then once more compared with minus infinity, which changes
  nothing —, and multiplies by the values.  Dividing by sqrt 64 is multiplying by 1/8 ('Cert.Scale.div_sqrt_64'),
  so at index (b, k, i, c) the result is 'Cert.Attn.attn' of the slab of (b, k), row i, feature c.

  The run's term is read one operation at a time by the generated index lemmas; the one operation they do not read
  (the row maximum) is read here as a fold over the reduced axis.
-/
import proofs.«126839_j50611894616484_2_alg».proof.Proof.Gen.ReferenceIdeal.Read
import proofs.«126839_j50611894616484_2_alg».proof.Proof.AttnSpec
import proofs.«126839_j50611894616484_2_alg».proof.Proof.Scale
import Idealize.ShloMosaic.Lib.ValueIdx
import Idealize.ShloMosaic.PureOps.Ideal.Laws

noncomputable section

namespace Cert.ReferenceIdeal.RefSide

open Cert.ReferenceIdeal Cert.ReferenceIdeal.Gen Cert.ReferenceIdeal.Read Idealize.ShloMosaic Idealize.ShloMosaic.ValueIdx Cert.Attn

/-! ## The three projections -/

/-- The queries: the projection of each row by (Wq, bq). -/
theorem q_apply (x0 : (⟨S4x8x2048x64, .f32⟩ : BufTy).Contents (Elt Ideal)) (w : (⟨S64x64, .f32⟩ : BufTy).Contents (Elt Ideal)) (bias : (⟨S64, .f32⟩ : BufTy).Contents (Elt Ideal))
    (b : Fin 4) (k : Fin 8) (t : Fin 2048) (d : Fin 64) :
    val_main_v3 (F := Ideal) x0 w bias (ix4 b k t d) = proj (slab4 x0 b k) (mat w) (vec bias) t d := by
  rw [val_main_v3_apply, val_main_v0_apply, val_main_v2_apply, val_main_v1_apply]
  show (∑ c : Fin 64, x0 _ * w _) + bias _ = (∑ c : Fin 64, x0 _ * w _) + bias _
  refine congrArg₂ (· + ·) (Finset.sum_congr rfl fun c _ => congrArg₂ (· * ·) (congrArg x0 ?_) (congrArg w ?_)) (congrArg bias ?_)
  · exact funext fun a => Fin.ext (by match a with | ⟨0, _⟩ => rfl | ⟨1, _⟩ => rfl | ⟨2, _⟩ => rfl | ⟨3, _⟩ => rfl)
  · exact funext fun a => Fin.ext (by match a with | ⟨0, _⟩ => rfl | ⟨1, _⟩ => rfl)
  · exact funext fun a => Fin.ext (by match a with | ⟨0, _⟩ => rfl)

/-- The keys: the projection of each row by (Wk, bk). -/
theorem k_apply (x0 : (⟨S4x8x2048x64, .f32⟩ : BufTy).Contents (Elt Ideal)) (w : (⟨S64x64, .f32⟩ : BufTy).Contents (Elt Ideal)) (bias : (⟨S64, .f32⟩ : BufTy).Contents (Elt Ideal))
    (b : Fin 4) (k : Fin 8) (t : Fin 2048) (d : Fin 64) :
    val_main_v7 (F := Ideal) x0 w bias (ix4 b k t d) = proj (slab4 x0 b k) (mat w) (vec bias) t d := by
  rw [val_main_v7_apply, val_main_v4_apply, val_main_v6_apply, val_main_v5_apply]
  show (∑ c : Fin 64, x0 _ * w _) + bias _ = (∑ c : Fin 64, x0 _ * w _) + bias _
  refine congrArg₂ (· + ·) (Finset.sum_congr rfl fun c _ => congrArg₂ (· * ·) (congrArg x0 ?_) (congrArg w ?_)) (congrArg bias ?_)
  · exact funext fun a => Fin.ext (by match a with | ⟨0, _⟩ => rfl | ⟨1, _⟩ => rfl | ⟨2, _⟩ => rfl | ⟨3, _⟩ => rfl)
  · exact funext fun a => Fin.ext (by match a with | ⟨0, _⟩ => rfl | ⟨1, _⟩ => rfl)
  · exact funext fun a => Fin.ext (by match a with | ⟨0, _⟩ => rfl)

/-- The values: the projection of each row by (Wv, bv). -/
theorem v_apply (x0 : (⟨S4x8x2048x64, .f32⟩ : BufTy).Contents (Elt Ideal)) (w : (⟨S64x64, .f32⟩ : BufTy).Contents (Elt Ideal)) (bias : (⟨S64, .f32⟩ : BufTy).Contents (Elt Ideal))
    (b : Fin 4) (k : Fin 8) (t : Fin 2048) (d : Fin 64) :
    val_main_v11 (F := Ideal) x0 w bias (ix4 b k t d) = proj (slab4 x0 b k) (mat w) (vec bias) t d := by
  rw [val_main_v11_apply, val_main_v8_apply, val_main_v10_apply, val_main_v9_apply]
  show (∑ c : Fin 64, x0 _ * w _) + bias _ = (∑ c : Fin 64, x0 _ * w _) + bias _
  refine congrArg₂ (· + ·) (Finset.sum_congr rfl fun c _ => congrArg₂ (· * ·) (congrArg x0 ?_) (congrArg w ?_)) (congrArg bias ?_)
  · exact funext fun a => Fin.ext (by match a with | ⟨0, _⟩ => rfl | ⟨1, _⟩ => rfl | ⟨2, _⟩ => rfl | ⟨3, _⟩ => rfl)
  · exact funext fun a => Fin.ext (by match a with | ⟨0, _⟩ => rfl | ⟨1, _⟩ => rfl)
  · exact funext fun a => Fin.ext (by match a with | ⟨0, _⟩ => rfl)

/-! ## Scores and the softmax -/

/-- The scores of (b, k): scaled inner products of query row i and key row j. -/
theorem s_apply (x0 : (⟨S4x8x2048x64, .f32⟩ : BufTy).Contents (Elt Ideal)) (x1 : (⟨S64x64, .f32⟩ : BufTy).Contents (Elt Ideal)) (x2 : (⟨S64, .f32⟩ : BufTy).Contents (Elt Ideal)) (x3 : (⟨S64x64, .f32⟩ : BufTy).Contents (Elt Ideal)) (x4 : (⟨S64, .f32⟩ : BufTy).Contents (Elt Ideal)) (b : Fin 4) (k : Fin 8) (i j : Fin 2048) :
    val_main_v15 (F := Ideal) x0 x1 x2 x3 x4 (ix4 b k i j)
      = score (proj (slab4 x0 b k) (mat x1) (vec x2)) (proj (slab4 x0 b k) (mat x3) (vec x4)) i j := by
  rw [val_main_v15_apply, val_main_v12_apply, val_main_v14_apply, val_main_v13_apply, val_main_cst_apply]
  show Ideal.div (∑ d : Fin 64, _ * _) (Ideal.sqrt (Ideal.ofBits .f32 0x42800000#32)) = _
  rw [Cert.Scale.div_sqrt_64]
  unfold score
  refine congrArg₂ (· * ·) (Finset.sum_congr rfl fun d _ => congrArg₂ (· * ·) ?_ ?_) rfl
  · have e : lidx_main_v12 (ix4 b k i j) d = ix4 b k i d := funext fun a => Fin.ext (by match a with | ⟨0, _⟩ => rfl | ⟨1, _⟩ => rfl | ⟨2, _⟩ => rfl | ⟨3, _⟩ => rfl)
    rw [e]; exact q_apply x0 x1 x2 b k i d
  · have e : ridx_main_v12 (ix4 b k i j) d = ix4 b k j d := funext fun a => Fin.ext (by match a with | ⟨0, _⟩ => rfl | ⟨1, _⟩ => rfl | ⟨2, _⟩ => rfl | ⟨3, _⟩ => rfl)
    rw [e]; exact k_apply x0 x3 x4 b k j d

/-- The row of scores of query row i of (b, k). -/
abbrev srow (x0 : (⟨S4x8x2048x64, .f32⟩ : BufTy).Contents (Elt Ideal)) (x1 : (⟨S64x64, .f32⟩ : BufTy).Contents (Elt Ideal)) (x2 : (⟨S64, .f32⟩ : BufTy).Contents (Elt Ideal)) (x3 : (⟨S64x64, .f32⟩ : BufTy).Contents (Elt Ideal)) (x4 : (⟨S64, .f32⟩ : BufTy).Contents (Elt Ideal)) (b : Fin 4) (k : Fin 8) (i : Fin 2048) : Fin 2048 → EReal :=
  fun j => val_main_v15 (F := Ideal) x0 x1 x2 x3 x4 (ix4 b k i j)

/-- The row maximum: the host's reduction with a maximum body over the last axis, from minus infinity, compared once
    more with minus infinity. -/
theorem m_apply (x0 : (⟨S4x8x2048x64, .f32⟩ : BufTy).Contents (Elt Ideal)) (x1 : (⟨S64x64, .f32⟩ : BufTy).Contents (Elt Ideal)) (x2 : (⟨S64, .f32⟩ : BufTy).Contents (Elt Ideal)) (x3 : (⟨S64x64, .f32⟩ : BufTy).Contents (Elt Ideal)) (x4 : (⟨S64, .f32⟩ : BufTy).Contents (Elt Ideal)) (b : Fin 4) (k : Fin 8) (i : Fin 2048) :
    val_main_v18 (F := Ideal) x0 x1 x2 x3 x4 (ix3 b k i) = rowMax (srow x0 x1 x2 x3 x4 b k i) := by
  rw [val_main_v18_apply, val_main_v17_apply, val_main_cst_1_apply]
  show max (Ideal.ofBits .f32 0xFF800000#32) (val_main_v16 (F := Ideal) x0 x1 x2 x3 x4 (ix3 b k i)) = _
  rw [Cert.Scale.max_negInf]
  unfold val_main_v16
  refine (Host.reduce_eq_fold_single FloatOps.maximumf _ _ reducesTo_S4x8x2048x2048_S4x8x2048_d3 (by decide) h_S_ (ix3 b k i)).trans ?_
  exact congrArg (fun f => Finset.fold max negInf f (Finset.univ : Finset (Fin 2048)))
    (funext fun kk => congrArg (val_main_v15 (F := Ideal) x0 x1 x2 x3 x4) (funext fun a => Fin.ext (by match a with | ⟨0, _⟩ => rfl | ⟨1, _⟩ => rfl | ⟨2, _⟩ => rfl | ⟨3, _⟩ => rfl)))

/-- The exponentials with the row maximum subtracted. -/
theorem e_apply (x0 : (⟨S4x8x2048x64, .f32⟩ : BufTy).Contents (Elt Ideal)) (x1 : (⟨S64x64, .f32⟩ : BufTy).Contents (Elt Ideal)) (x2 : (⟨S64, .f32⟩ : BufTy).Contents (Elt Ideal)) (x3 : (⟨S64x64, .f32⟩ : BufTy).Contents (Elt Ideal)) (x4 : (⟨S64, .f32⟩ : BufTy).Contents (Elt Ideal)) (b : Fin 4) (k : Fin 8) (i j : Fin 2048) :
    val_main_v22 (F := Ideal) x0 x1 x2 x3 x4 (ix4 b k i j) = expRow (srow x0 x1 x2 x3 x4 b k i) j := by
  rw [val_main_v22_apply, val_main_v21_apply, val_main_v20_apply, val_main_v19_apply]
  have e : idx_main_v19 (idx_main_v20 (ix4 b k i j : S4x8x2048x2048.Idx)) = ix3 b k i := funext fun a => Fin.ext (by match a with | ⟨0, _⟩ => rfl | ⟨1, _⟩ => rfl | ⟨2, _⟩ => rfl)
  rw [e, m_apply]
  rfl

/-- The softmax weights. -/
theorem w_apply (x0 : (⟨S4x8x2048x64, .f32⟩ : BufTy).Contents (Elt Ideal)) (x1 : (⟨S64x64, .f32⟩ : BufTy).Contents (Elt Ideal)) (x2 : (⟨S64, .f32⟩ : BufTy).Contents (Elt Ideal)) (x3 : (⟨S64x64, .f32⟩ : BufTy).Contents (Elt Ideal)) (x4 : (⟨S64, .f32⟩ : BufTy).Contents (Elt Ideal)) (b : Fin 4) (k : Fin 8) (i j : Fin 2048) :
    val_main_v26 (F := Ideal) x0 x1 x2 x3 x4 (ix4 b k i j) = weight (srow x0 x1 x2 x3 x4 b k i) j := by
  rw [val_main_v26_apply, val_main_v25_apply, val_main_v24_apply]
  have e : idx_main_v24 (idx_main_v25 (ix4 b k i j : S4x8x2048x2048.Idx)) = ix3 b k i := funext fun a => Fin.ext (by match a with | ⟨0, _⟩ => rfl | ⟨1, _⟩ => rfl | ⟨2, _⟩ => rfl)
  rw [e, val_main_v23_apply, val_main_cst_2_apply]
  show Ideal.div _ (Ideal.ofBits .f32 0x00000000#32 + _) = Ideal.div _ _
  rw [Ideal.ofBits_zero_f32, zero_add]
  refine congrArg₂ Ideal.div (e_apply x0 x1 x2 x3 x4 b k i j) (Finset.sum_congr rfl fun kk _ => ?_)
  have e' : idx_main_v23 (ix3 b k i) kk = ix4 b k i kk := funext fun a => Fin.ext (by match a with | ⟨0, _⟩ => rfl | ⟨1, _⟩ => rfl | ⟨2, _⟩ => rfl | ⟨3, _⟩ => rfl)
  rw [e']; exact e_apply x0 x1 x2 x3 x4 b k i kk

/-! ## The result -/

/-- THE REFERENCE at (b, k, i, c): the attention of the slab of (b, k) against itself, row i, feature c. -/
theorem out_apply (x0 : (⟨S4x8x2048x64, .f32⟩ : BufTy).Contents (Elt Ideal)) (x1 : (⟨S64x64, .f32⟩ : BufTy).Contents (Elt Ideal)) (x2 : (⟨S64, .f32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (b : Fin 4) (k : Fin 8) (i : Fin 2048) (c : Fin 64) :
    val_main_v27 (F := Ideal) x0 x1 x2 x3 x4 x5 x6 (ix4 b k i c)
      = attn (slab4 x0 b k) (slab4 x0 b k) (mat x1) (vec x2) (mat x3) (vec x4) (mat x5) (vec x6) i c := by
  rw [val_main_v27_apply]
  unfold attn attend
  refine Finset.sum_congr rfl fun j _ => congrArg₂ (· * ·) ?_ ?_
  · have e : lidx_main_v27 (ix4 b k i c) j = ix4 b k i j := funext fun a => Fin.ext (by match a with | ⟨0, _⟩ => rfl | ⟨1, _⟩ => rfl | ⟨2, _⟩ => rfl | ⟨3, _⟩ => rfl)
    rw [e]
    exact (w_apply x0 x1 x2 x3 x4 b k i j).trans
      (congrArg (fun s => weight s j) (funext fun jj => s_apply x0 x1 x2 x3 x4 b k i jj))
  · have e : ridx_main_v27 (ix4 b k i c) j = ix4 b k j c := funext fun a => Fin.ext (by match a with | ⟨0, _⟩ => rfl | ⟨1, _⟩ => rfl | ⟨2, _⟩ => rfl | ⟨3, _⟩ => rfl)
    rw [e]; exact v_apply x0 x5 x6 b k j c

/-- The whole array: the reference computes `Cert.Attn.G4` of its arguments. -/
theorem reference_eq (x0 : (⟨S4x8x2048x64, .f32⟩ : BufTy).Contents (Elt Ideal)) (x1 : (⟨S64x64, .f32⟩ : BufTy).Contents (Elt Ideal)) (x2 : (⟨S64, .f32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) :
    val_main_v27 (F := Ideal) x0 x1 x2 x3 x4 x5 x6 = G4 x0 x1 x2 x3 x4 x5 x6 := by
  funext idx
  obtain ⟨b, k, i, c, rfl⟩ : ∃ (b : Fin 4) (k : Fin 8) (i : Fin 2048) (c : Fin 64), idx = ix4 b k i c :=
    ⟨idx 0, idx 1, idx 2, idx 3, eq_ix4 idx⟩
  exact out_apply x0 x1 x2 x3 x4 x5 x6 b k i c

end Cert.ReferenceIdeal.RefSide

end
-- ==== Proof.lean ====
/-
  Single-head self-attention over 32 groups of 2048 tokens with 64 features: a tiled kernel against the plain formula.

  Both programs compute, for every (batch, head) slab X of the input and every query row i,
      out i = sum over j of softmax_j ((q i . k j) / 8) * v j,      q, k, v = X * transpose W + b,
  with the softmax taken with the row maximum subtracted.  They differ in arrangement only: the kernel flattens
  (batch, head) into one group axis, handles a group in two tiles of 1024 query rows, computes the group's keys and
  values once (at the first tile) into two buffers it carries to the second tile, and multiplies the scores by the
  binary constant 1/8 where the reference divides them by sqrt 64.  On the extended reals a quotient by 8 is the
  product with 1/8 at every value, so the two results agree entry by entry; no finiteness of the inputs is used.

  The frames of the two kernel programs are the generated ones; the reference's frame is its generated run with the
  result dropped; the ideal pass rewrote nothing.  For the equality of results, the kernel's result array is read off
  its frame run (KernelPieces, KernelTile, KernelArray, KernelRun), the reference's off its generated run (RefSide),
  and both are 'Cert.Attn.G4' of the arguments (AttnSpec, Scale, Bridge).
-/
import proofs.«126839_j50611894616484_2_alg».proof.Defs
import proofs.«126839_j50611894616484_2_alg».proof.Proof.Gen.Kernel
import proofs.«126839_j50611894616484_2_alg».proof.Proof.Gen.Kernel.Frame
import proofs.«126839_j50611894616484_2_alg».proof.Proof.Gen.KernelIdeal
import proofs.«126839_j50611894616484_2_alg».proof.Proof.Gen.KernelIdeal.Frame
import proofs.«126839_j50611894616484_2_alg».proof.Proof.Gen.ReferenceIdeal
import proofs.«126839_j50611894616484_2_alg».proof.Proof.Gen.ReferenceIdeal.Read
import proofs.«126839_j50611894616484_2_alg».proof.Proof.Gen.Pre_finite_inputs
import proofs.«126839_j50611894616484_2_alg».proof.Proof.KernelRun
import proofs.«126839_j50611894616484_2_alg».proof.Proof.RefSide
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs end with the attention of the arguments. -/
theorem algebraic : Cert.algebraic_KernelIdeal_ReferenceIdeal := by
  intro m ρ m' ρ' _ hagree
  refine ⟨fun c => Cert.Attn.G4 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, Cert.ReferenceIdeal.RefSide.reference_eq,
    (hagree c).1, (hagree c).2.1, (hagree c).2.2.1, (hagree c).2.2.2.1, (hagree c).2.2.2.2.1, (hagree c).2.2.2.2.2.1,
    (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
